-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x128 : Shape := ⟨4, ![1, 256, 256, 128]⟩
abbrev S128 : Shape := ⟨1, ![128]⟩
abbrev S4x128 : Shape := ⟨2, ![4, 128]⟩
abbrev S128x128 : Shape := ⟨2, ![128, 128]⟩
abbrev S_ : Shape := ⟨0, ![]⟩

class Facts : Prop where
  bcast_S_S1x256x256x128 : S_.BroadcastsInDim S1x256x256x128 (![] : Fin 0 → Fin S1x256x256x128.rank)
  reducesTo_S1x256x256x128_S_d0_1_2_3 : S1x256x256x128.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S1x256x256x128 .f32) (main_arg1 : FVec F S128 .f32) (main_arg2 : FVec F S128 .f32) (main_arg3 : FVec F S4x128 .f32) (main_arg4 : FVec F S128x128 .f32) (main_arg5 : FVec F S128x128 .f32) (main_arg6 : FVec F S128x128 .f32) (main_arg7 : FVec F S128x128 .f32) (main_arg8 : FVec F S128x128 .f32) : IVec S_ 1 :=
  let main_v0 : FVec F S1x256x256x128 .f32 := Host.absf main_arg0
  let main_cst : FVec F S_ .f32 := constant S_ .f32 0x7F800000#32
  let main_v1 : FVec F S1x256x256x128 .f32 := broadcastInDim S1x256x256x128 ![] bcast_S_S1x256x256x128 main_cst
  let main_v2 : IVec S1x256x256x128 1 := cmpf .olt main_v0 main_v1
  let main_c : IVec S_ 1 := constantI S_ 1 1#1
  let main_v3 : IVec S_ 1 := (fun x v => Host.reduce IntOp.andi x v reducesTo_S1x256x256x128_S_d0_1_2_3 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_arg6 main_arg7 main_arg8 main_v13 main_v16
-- ==== Kernel.lean ====
abbrev S1x256x256x128 : Shape := ⟨4, ![1, 256, 256, 128]⟩
abbrev S128 : Shape := ⟨1, ![128]⟩
abbrev S4x128 : Shape := ⟨2, ![4, 128]⟩
abbrev S128x128 : Shape := ⟨2, ![128, 128]⟩
abbrev S4x256x256 : Shape := ⟨3, ![4, 256, 256]⟩
abbrev S1x64x256x128 : Shape := ⟨4, ![1, 64, 256, 128]⟩
abbrev S4x64x256 : Shape := ⟨3, ![4, 64, 256]⟩
abbrev S64x256x128 : Shape := ⟨3, ![64, 256, 128]⟩
abbrev S64x256 : Shape := ⟨2, ![64, 256]⟩
abbrev S64x256x1 : Shape := ⟨3, ![64, 256, 1]⟩
abbrev S1x1x128 : Shape := ⟨3, ![1, 1, 128]⟩
abbrev S16384x128 : Shape := ⟨2, ![16384, 128]⟩
abbrev S4x16384 : Shape := ⟨2, ![4, 16384]⟩
abbrev S256x256x128 : Shape := ⟨3, ![256, 256, 128]⟩
abbrev S1x16x256x128 : Shape := ⟨4, ![1, 16, 256, 128]⟩
abbrev S16x256x128 : Shape := ⟨3, ![16, 256, 128]⟩
abbrev S16x256 : Shape := ⟨2, ![16, 256]⟩
abbrev S16x256x1 : Shape := ⟨3, ![16, 256, 1]⟩
abbrev S4096x128 : Shape := ⟨2, ![4096, 128]⟩
abbrev S32x128 : Shape := ⟨2, ![32, 128]⟩
abbrev S128x32 : Shape := ⟨2, ![128, 32]⟩
abbrev S4096x32 : Shape := ⟨2, ![4096, 32]⟩
abbrev S16x256x32 : Shape := ⟨3, ![16, 256, 32]⟩
abbrev S1x256x256 : Shape := ⟨3, ![1, 256, 256]⟩
abbrev S256x256 : Shape := ⟨2, ![256, 256]⟩
abbrev S16x256x256 : Shape := ⟨3, ![16, 256, 256]⟩

abbrev nBuf : Space → Nat
  | .hbm => 12
  | .vmem => 19
  | .smem => 0
  | _ => 0

abbrev bufTy : (tb : Table) → Fin (tcTables nBuf tb) → BufTy
  | .hbm, ⟨0, _⟩ => ⟨S1x256x256x128, .f32⟩
  | .hbm, ⟨1, _⟩ => ⟨S128, .f32⟩
  | .hbm, ⟨2, _⟩ => ⟨S128, .f32⟩
  | .hbm, ⟨3, _⟩ => ⟨S4x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S4x256x256, .f32⟩
  | .hbm, ⟨10, _⟩ => ⟨S256x256x128, .f32⟩
  | .hbm, ⟨11, _⟩ => ⟨S1x256x256x128, .f32⟩
  | .local _ .vmem, ⟨0, _⟩ => ⟨S1x64x256x128, .f32⟩
  | .local _ .vmem, ⟨1, _⟩ => ⟨S1x64x256x128, .f32⟩
  | .local _ .vmem, ⟨2, _⟩ => ⟨S128, .f32⟩
  | .local _ .vmem, ⟨3, _⟩ => ⟨S128, .f32⟩
  | .local _ .vmem, ⟨4, _⟩ => ⟨S4x128, .f32⟩
  | .local _ .vmem, ⟨5, _⟩ => ⟨S4x64x256, .f32⟩
  | .local _ .vmem, ⟨6, _⟩ => ⟨S4x64x256, .f32⟩
  | .local _ .vmem, ⟨7, _⟩ => ⟨S1x16x256x128, .f32⟩
  | .local _ .vmem, ⟨8, _⟩ => ⟨S1x16x256x128, .f32⟩
  | .local _ .vmem, ⟨9, _⟩ => ⟨S128, .f32⟩
  | .local _ .vmem, ⟨10, _⟩ => ⟨S128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S4x256x256, .f32⟩
  | .local _ .vmem, ⟨17, _⟩ => ⟨S16x256x128, .f32⟩
  | .local _ .vmem, ⟨18, _⟩ => ⟨S16x256x128, .f32⟩
  | _, _ => ⟨S1x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S16x256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S1x64x256x128_S1x64x256x128_0_0_0_0 : ∀ a, (![0, 0, 0, 0] : Fin 4 → Nat) a + S1x64x256x128.size a ≤ S1x64x256x128.size a
  h_S1x64x256x128 : 0 < S1x64x256x128.numel
  shapeCasts_S1x64x256x128_S64x256x128 : S1x64x256x128.ShapeCasts S64x256x128
  reduces_S64x256x128_S64x256 : S64x256x128.Reduces [2] S64x256
  shapeCasts_S64x256_S64x256x1 : S64x256.ShapeCasts S64x256x1
  broadcasts_S64x256x1_S64x256x128 : S64x256x1.Broadcasts S64x256x128
  inb_S128_S128_0 : ∀ a, (![0] : Fin 1 → Nat) a + S128.size a ≤ S128.size a
  h_S128 : 0 < S128.numel
  shapeCasts_S128_S1x1x128 : S128.ShapeCasts S1x1x128
  broadcasts_S1x1x128_S64x256x128 : S1x1x128.Broadcasts S64x256x128
  shapeCasts_S64x256x128_S16384x128 : S64x256x128.ShapeCasts S16384x128
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  shapeCasts_S4x16384_S4x64x256 : S4x16384.ShapeCasts S4x64x256
  inb_S4x64x256_S4x64x256_0_0_0 : ∀ a, (![0, 0, 0] : Fin 3 → Nat) a + S4x64x256.size a ≤ S4x64x256.size a
  h_S4x64x256 : 0 < S4x64x256.numel
  inb_S1x16x256x128_S1x16x256x128_0_0_0_0 : ∀ a, (![0, 0, 0, 0] : Fin 4 → Nat) a + S1x16x256x128.size a ≤ S1x16x256x128.size a
  h_S1x16x256x128 : 0 < S1x16x256x128.numel
  shapeCasts_S1x16x256x128_S16x256x128 : S1x16x256x128.ShapeCasts S16x256x128
  reduces_S16x256x128_S16x256 : S16x256x128.Reduces [2] S16x256
  shapeCasts_S16x256_S16x256x1 : S16x256.ShapeCasts S16x256x1
  broadcasts_S16x256x1_S16x256x128 : S16x256x1.Broadcasts S16x256x128
  broadcasts_S1x1x128_S16x256x128 : S1x1x128.Broadcasts S16x256x128
  shapeCasts_S16x256x128_S4096x128 : S16x256x128.ShapeCasts S4096x128
  inb_S128x128_S32x128_0_0 : ∀ a, (![0, 0] : Fin 2 → Nat) a + S32x128.size a ≤ S128x128.size a
  h_S32x128 : 0 < S32x128.numel
  inb_S128x128_S128x32_0_0 : ∀ a, (![0, 0] : Fin 2 → Nat) a + S128x32.size a ≤ S128x128.size a
  h_S128x32 : 0 < S128x32.numel
  shapeCasts_S4096x32_S16x256x32 : S4096x32.ShapeCasts S16x256x32
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  shapeCasts_S256x256_S1x256x256 : S256x256.ShapeCasts S1x256x256
  broadcasts_S1x256x256_S16x256x256 : S1x256x256.Broadcasts S16x256x256
  reduces_S16x256x256_S16x256 : S16x256x256.Reduces [2] S16x256
  broadcasts_S16x256x1_S16x256x256 : S16x256x1.Broadcasts S16x256x256
  shapeCasts_S16x256x32_S4096x32 : S16x256x32.ShapeCasts S4096x32
  inb_S128x128_S32x128_32_0 : ∀ a, (![32, 0] : Fin 2 → Nat) a + S32x128.size a ≤ S128x128.size a
  inb_S128x128_S128x32_0_32 : ∀ a, (![0, 32] : Fin 2 → Nat) a + S128x32.size a ≤ S128x128.size a
  inb_S4x256x256_S1x256x256_1_0_0 : ∀ a, (![1, 0, 0] : Fin 3 → Nat) a + S1x256x256.size a ≤ S4x256x256.size a
  inb_S128x128_S32x128_64_0 : ∀ a, (![64, 0] : Fin 2 → Nat) a + S32x128.size a ≤ S128x128.size a
  inb_S128x128_S128x32_0_64 : ∀ a, (![0, 64] : Fin 2 → Nat) a + S128x32.size a ≤ S128x128.size a
  inb_S4x256x256_S1x256x256_2_0_0 : ∀ a, (![2, 0, 0] : Fin 3 → Nat) a + S1x256x256.size a ≤ S4x256x256.size a
  inb_S128x128_S32x128_96_0 : ∀ a, (![96, 0] : Fin 2 → Nat) a + S32x128.size a ≤ S128x128.size a
  inb_S128x128_S128x32_0_96 : ∀ a, (![0, 96] : Fin 2 → Nat) a + S128x32.size a ≤ S128x128.size a
  inb_S4x256x256_S1x256x256_3_0_0 : ∀ a, (![3, 0, 0] : Fin 3 → Nat) a + S1x256x256.size a ≤ S4x256x256.size a
  shapeCasts_S4096x128_S16x256x128 : S4096x128.ShapeCasts S16x256x128
  inb_S16x256x128_S16x256x128_0_0_0 : ∀ a, (![0, 0, 0] : Fin 3 → Nat) a + S16x256x128.size a ≤ S16x256x128.size a
  h_S16x256x128 : 0 < S16x256x128.numel
  bcast_S256x256x128_S1x256x256x128_1_2_3 : S256x256x128.BroadcastsInDim S1x256x256x128 (![1, 2, 3] : Fin 3 → Fin S1x256x256x128.rank)
  dot_S4x128_S16384x128_S4x16384_1_1_0_0_n_n_wf : DotDims.WF S4x128 S16384x128 S4x16384 [1] [1] [0] [0] [] []
  dot_S4096x128_S32x128_S4096x32_1_1_0_0_n_n_wf : DotDims.WF S4096x128 S32x128 S4096x32 [1] [1] [0] [0] [] []
  dot_S16x256x32_S16x256x32_S16x256x256_2_2_1_1_0_0_wf : DotDims.WF S16x256x32 S16x256x32 S16x256x256 [2] [2] [1] [1] [0] [0]
  dot_S16x256x256_S16x256x32_S16x256x32_2_1_1_2_0_0_wf : DotDims.WF S16x256x256 S16x256x32 S16x256x32 [2] [1] [1] [2] [0] [0]
  dot_S4096x32_S128x32_S4096x128_1_1_0_0_n_n_wf : DotDims.WF S4096x32 S128x32 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x128.size a ≤ S1x256x256x128.size a
  hwx0_0 : ∀ i : grid0.Coords, EltTy.bits .f32 = 32 ∨ (Rect.block (s := S1x256x256x128) S1x64x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x64x256.size a ≤ S4x256x256.size a
  hwx0_4 : ∀ i : grid0.Coords, EltTy.bits .f32 = 32 ∨ (Rect.block (s := S4x256x256) S4x64x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x128.size a ≤ S1x256x256x128.size a
  hwx1_0 : ∀ i : grid1.Coords, EltTy.bits .f32 = 32 ∨ (Rect.block (s := S1x256x256x128) S1x16x256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x256x256.size a ≤ S4x256x256.size a
  hwx1_8 : ∀ i : grid1.Coords, EltTy.bits .f32 = 32 ∨ (Rect.block (s := S4x256x256) S4x256x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S16x256x128.size a ≤ S256x256x128.size a
  hwx1_9 : ∀ i : grid1.Coords, EltTy.bits .f32 = 32 ∨ (Rect.block (s := S256x256x128) S16x256x128.size (cc1_transform_9 i) (hinb1_9 i)).WholeWords (EltTy.packing .f32)

variable [Facts₀]

def dot_S4x128_S16384x128_S4x16384_1_1_0_0_n_n : DotDims S4x128 S16384x128 S4x16384 where
  lhsContracting := [1]
  rhsContracting := [1]
  lhsNonContracting := [0]
  rhsNonContracting := [0]
  lhsBatch := []
  rhsBatch := []
  wf := dot_S4x128_S16384x128_S4x16384_1_1_0_0_n_n_wf
def dot_S4096x128_S32x128_S4096x32_1_1_0_0_n_n : DotDims S4096x128 S32x128 S4096x32 where
  lhsContracting := [1]
  rhsContracting := [1]
  lhsNonContracting := [0]
  rhsNonContracting := [0]
  lhsBatch := []
  rhsBatch := []
  wf := dot_S4096x128_S32x128_S4096x32_1_1_0_0_n_n_wf
def dot_S16x256x32_S16x256x32_S16x256x256_2_2_1_1_0_0 : DotDims S16x256x32 S16x256x32 S16x256x256 where
  lhsContracting := [2]
  rhsContracting := [2]
  lhsNonContracting := [1]
  rhsNonContracting := [1]
  lhsBatch := [0]
  rhsBatch := [0]
  wf := dot_S16x256x32_S16x256x32_S16x256x256_2_2_1_1_0_0_wf
def dot_S16x256x256_S16x256x32_S16x256x32_2_1_1_2_0_0 : DotDims S16x256x256 S16x256x32 S16x256x32 where
  lhsContracting := [2]
  rhsContracting := [1]
  lhsNonContracting := [1]
  rhsNonContracting := [2]
  lhsBatch := [0]
  rhsBatch := [0]
  wf := dot_S16x256x256_S16x256x32_S16x256x32_2_1_1_2_0_0_wf
def dot_S4096x32_S128x32_S4096x128_1_1_0_0_n_n : DotDims S4096x32 S128x32 S4096x128 where
  lhsContracting := [1]
  rhsContracting := [1]
  lhsNonContracting := [0]
  rhsNonContracting := [0]
  lhsBatch := []
  rhsBatch := []
  wf := dot_S4096x32_S128x32_S4096x128_1_1_0_0_n_n_wf

abbrev win0_0 : Pipeline.Window sig grid0 :=
  Pipeline.Window.ofSpec (Memref.whole main_arg0) S1x64x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x16x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0) S4x256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S16x256x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1x256x256x128 : Shape := ⟨4, ![1, 256, 256, 128]⟩
abbrev S128 : Shape := ⟨1, ![128]⟩
abbrev S4x128 : Shape := ⟨2, ![4, 128]⟩
abbrev S128x128 : Shape := ⟨2, ![128, 128]⟩
abbrev S256x256x128 : Shape := ⟨3, ![256, 256, 128]⟩
abbrev S_ : Shape := ⟨0, ![]⟩
abbrev S256x256 : Shape := ⟨2, ![256, 256]⟩
abbrev S256x256x1 : Shape := ⟨3, ![256, 256, 1]⟩
abbrev S1x1x128 : Shape := ⟨3, ![1, 1, 128]⟩
abbrev S4x256x256 : Shape := ⟨3, ![4, 256, 256]⟩
abbrev S256x256x4x32 : Shape := ⟨4, ![256, 256, 4, 32]⟩
abbrev S4x256x256x32 : Shape := ⟨4, ![4, 256, 256, 32]⟩
abbrev S4x256x256x256 : Shape := ⟨4, ![4, 256, 256, 256]⟩
abbrev S4x1x256x256 : Shape := ⟨4, ![4, 1, 256, 256]⟩
abbrev S4x256x256x1 : Shape := ⟨4, ![4, 256, 256, 1]⟩

abbrev nBuf : Space → Nat
  | .hbm => 85
  | .vmem => 0
  | .smem => 0
  | _ => 0

abbrev bufTy : (tb : Table) → Fin (tcTables nBuf tb) → BufTy
  | .hbm, ⟨0, _⟩ => ⟨S1x256x256x128, .f32⟩
  | .hbm, ⟨1, _⟩ => ⟨S128, .f32⟩
  | .hbm, ⟨2, _⟩ => ⟨S128, .f32⟩
  | .hbm, ⟨3, _⟩ => ⟨S4x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S256x256x128, .f32⟩
  | .hbm, ⟨10, _⟩ => ⟨S_, .f32⟩
  | .hbm, ⟨11, _⟩ => ⟨S256x256, .f32⟩
  | .hbm, ⟨12, _⟩ => ⟨S256x256x1, .f32⟩
  | .hbm, ⟨13, _⟩ => ⟨S_, .f32⟩
  | .hbm, ⟨14, _⟩ => ⟨S256x256x1, .f32⟩
  | .hbm, ⟨15, _⟩ => ⟨S256x256x1, .f32⟩
  | .hbm, ⟨16, _⟩ => ⟨S256x256x128, .f32⟩
  | .hbm, ⟨17, _⟩ => ⟨S256x256x128, .f32⟩
  | .hbm, ⟨18, _⟩ => ⟨S256x256x128, .f32⟩
  | .hbm, ⟨19, _⟩ => ⟨S_, .f32⟩
  | .hbm, ⟨20, _⟩ => ⟨S256x256, .f32⟩
  | .hbm, ⟨21, _⟩ => ⟨S256x256x1, .f32⟩
  | .hbm, ⟨22, _⟩ => ⟨S_, .f32⟩
  | .hbm, ⟨23, _⟩ => ⟨S256x256x1, .f32⟩
  | .hbm, ⟨24, _⟩ => ⟨S256x256x1, .f32⟩
  | .hbm, ⟨25, _⟩ => ⟨S256x256x128, .f32⟩
  | .hbm, ⟨26, _⟩ => ⟨S256x256x128, .f32⟩
  | .hbm, ⟨27, _⟩ => ⟨S_, .f32⟩
  | .hbm, ⟨28, _⟩ => ⟨S256x256x1, .f32⟩
  | .hbm, ⟨29, _⟩ => ⟨S256x256x1, .f32⟩
  | .hbm, ⟨30, _⟩ => ⟨S256x256x1, .f32⟩
  | .hbm, ⟨31, _⟩ => ⟨S256x256x128, .f32⟩
  | .hbm, ⟨32, _⟩ => ⟨S256x256x128, .f32⟩
  | .hbm, ⟨33, _⟩ => ⟨S1x1x128, .f32⟩
  | .hbm, ⟨34, _⟩ => ⟨S256x256x128, .f32⟩
  | .hbm, ⟨35, _⟩ => ⟨S256x256x128, .f32⟩
  | .hbm, ⟨36, _⟩ => ⟨S1x1x128, .f32⟩
  | .hbm, ⟨37, _⟩ => ⟨S256x256x128, .f32⟩
  | .hbm, ⟨38, _⟩ => ⟨S256x256x128, .f32⟩
  | .hbm, ⟨39, _⟩ => ⟨S4x256x256, .f32⟩
  | .hbm, ⟨40, _⟩ => ⟨S256x256x128, .f32⟩
  | .hbm, ⟨41, _⟩ => ⟨S256x256x4x32, .f32⟩
  | .hbm, ⟨42, _⟩ => ⟨S4x256x256x32, .f32⟩
  | .hbm, ⟨43, _⟩ => ⟨S256x256x128, .f32⟩
  | .hbm, ⟨44, _⟩ => ⟨S256x256x4x32, .f32⟩
  | .hbm, ⟨45, _⟩ => ⟨S4x256x256x32, .f32⟩
  | .hbm, ⟨46, _⟩ => ⟨S256x256x128, .f32⟩
  | .hbm, ⟨47, _⟩ => ⟨S256x256x4x32, .f32⟩
  | .hbm, ⟨48, _⟩ => ⟨S4x256x256x32, .f32⟩
  | .hbm, ⟨49, _⟩ => ⟨S4x256x256x256, .f32⟩
  | .hbm, ⟨50, _⟩ => ⟨S_, .f32⟩
  | .hbm, ⟨51, _⟩ => ⟨S4x256x256x256, .f32⟩
  | .hbm, ⟨52, _⟩ => ⟨S4x256x256x256, .f32⟩
  | .hbm, ⟨53, _⟩ => ⟨S4x1x256x256, .f32⟩
  | .hbm, ⟨54, _⟩ => ⟨S4x256x256x256, .f32⟩
  | .hbm, ⟨55, _⟩ => ⟨S4x256x256x256, .f32⟩
  | .hbm, ⟨56, _⟩ => ⟨S_, .f32⟩
  | .hbm, ⟨57, _⟩ => ⟨S4x256x256, .f32⟩
  | .hbm, ⟨58, _⟩ => ⟨S_, .f32⟩
  | .hbm, ⟨59, _⟩ => ⟨S4x256x256, .f32⟩
  | .hbm, ⟨60, _⟩ => ⟨S4x256x256, .f32⟩
  | .hbm, ⟨61, _⟩ => ⟨S4x256x256x1, .f32⟩
  | .hbm, ⟨62, _⟩ => ⟨S4x256x256x256, .f32⟩
  | .hbm, ⟨63, _⟩ => ⟨S4x256x256x256, .f32⟩
  | .hbm, ⟨64, _⟩ => ⟨S4x256x256x256, .f32⟩
  | .hbm, ⟨65, _⟩ => ⟨S_, .f32⟩
  | .hbm, ⟨66, _⟩ => ⟨S4x256x256, .f32⟩
  | .hbm, ⟨67, _⟩ => ⟨S4x256x256x1, .f32⟩
  | .hbm, ⟨68, _⟩ => ⟨S4x256x256x256, .f32⟩
  | .hbm, ⟨69, _⟩ => ⟨S4x256x256x256, .f32⟩
  | .hbm, ⟨70, _⟩ => ⟨S4x256x256x32, .f32⟩
  | .hbm, ⟨71, _⟩ => ⟨S256x256x4x32, .f32⟩
  | .hbm, ⟨72, _⟩ => ⟨S256x256x128, .f32⟩
  | .hbm, ⟨73, _⟩ => ⟨S256x256x128, .f32⟩
  | .hbm, ⟨74, _⟩ => ⟨S256x256x128, .f32⟩
  | .hbm, ⟨75, _⟩ => ⟨S256x256x128, .f32⟩
  | .hbm, ⟨76, _⟩ => ⟨S_, .f32⟩
  | .hbm, ⟨77, _⟩ => ⟨S256x256x128, .f32⟩
  | .hbm, ⟨78, _⟩ => ⟨S256x256x128, .f32⟩
  | .hbm, ⟨79, _⟩ => ⟨S_, .f32⟩
  | .hbm, ⟨80, _⟩ => ⟨S256x256x128, .f32⟩
  | .hbm, ⟨81, _⟩ => ⟨S256x256x128, .f32⟩
  | .hbm, ⟨82, _⟩ => ⟨S256x256x128, .f32⟩
  | .hbm, ⟨83, _⟩ => ⟨S256x256x128, .f32⟩
  | .hbm, ⟨84, _⟩ => ⟨S1x256x256x128, .f32⟩
  | _, _ => ⟨S1x256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  shapeCasts_S1x256x256x128_S256x256x128 : S1x256x256x128.ShapeCasts S256x256x128
  reducesTo_S256x256x128_S256x256_d2 : S256x256x128.ReducesTo [2] S256x256
  h_S_ : 0 < S_.numel
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S256x256x1_S256x256x128_0_1_2 : S256x256x1.BroadcastsInDim S256x256x128 (![0, 1, 2] : Fin 3 → Fin S256x256x128.rank)
  bcast_S128_S1x1x128_2 : S128.BroadcastsInDim S1x1x128 (![2] : Fin 1 → Fin S1x1x128.rank)
  bcast_S1x1x128_S256x256x128_0_1_2 : S1x1x128.BroadcastsInDim S256x256x128 (![0, 1, 2] : Fin 3 → Fin S256x256x128.rank)
  shapeCasts_S256x256x128_S256x256x4x32 : S256x256x128.ShapeCasts S256x256x4x32
  transposes_S256x256x4x32_S4x256x256x32_2_0_1_3 : S256x256x4x32.Transposes [2, 0, 1, 3] S4x256x256x32
  bcast_S_S4x256x256x256 : S_.BroadcastsInDim S4x256x256x256 (![] : Fin 0 → Fin S4x256x256x256.rank)
  bcast_S4x256x256_S4x1x256x256_0_2_3 : S4x256x256.BroadcastsInDim S4x1x256x256 (![0, 2, 3] : Fin 3 → Fin S4x1x256x256.rank)
  bcast_S4x1x256x256_S4x256x256x256_0_1_2_3 : S4x1x256x256.BroadcastsInDim S4x256x256x256 (![0, 1, 2, 3] : Fin 4 → Fin S4x256x256x256.rank)
  reducesTo_S4x256x256x256_S4x256x256_d3 : S4x256x256x256.ReducesTo [3] S4x256x256
  bcast_S_S4x256x256 : S_.BroadcastsInDim S4x256x256 (![] : Fin 0 → Fin S4x256x256.rank)
  bcast_S4x256x256_S4x256x256x1_0_1_2 : S4x256x256.BroadcastsInDim S4x256x256x1 (![0, 1, 2] : Fin 3 → Fin S4x256x256x1.rank)
  bcast_S4x256x256x1_S4x256x256x256_0_1_2_3 : S4x256x256x1.BroadcastsInDim S4x256x256x256 (![0, 1, 2, 3] : Fin 4 → Fin S4x256x256x256.rank)
  transposes_S4x256x256x32_S256x256x4x32_1_2_0_3 : S4x256x256x32.Transposes [1, 2, 0, 3] S256x256x4x32
  shapeCasts_S256x256x4x32_S256x256x128 : S256x256x4x32.ShapeCasts S256x256x128
  bcast_S_S256x256x128 : S_.BroadcastsInDim S256x256x128 (![] : Fin 0 → Fin S256x256x128.rank)
  bcast_S256x256x128_S1x256x256x128_1_2_3 : S256x256x128.BroadcastsInDim S1x256x256x128 (![1, 2, 3] : Fin 3 → Fin S1x256x256x128.rank)
  dot_S4x128_S256x256x128_S4x256x256_1_2_0_01_n_n_wf : DotDims.WF S4x128 S256x256x128 S4x256x256 [1] [2] [0] [0, 1] [] []
  dot_S256x256x128_S128x128_S256x256x128_2_1_01_0_n_n_wf : DotDims.WF S256x256x128 S128x128 S256x256x128 [2] [1] [0, 1] [0] [] []
  dot_S4x256x256x32_S4x256x256x32_S4x256x256x256_3_3_2_2_01_01_wf : DotDims.WF S4x256x256x32 S4x256x256x32 S4x256x256x256 [3] [3] [2] [2] [0, 1] [0, 1]
  dot_S4x256x256x256_S4x256x256x32_S4x256x256x32_3_2_2_3_01_01_wf : DotDims.WF S4x256x256x256 S4x256x256x32 S4x256x256x32 [3] [2] [2] [3] [0, 1] [0, 1]

variable [Facts₀]

def dot_S4x128_S256x256x128_S4x256x256_1_2_0_01_n_n : DotDims S4x128 S256x256x128 S4x256x256 where
  lhsContracting := [1]
  rhsContracting := [2]
  lhsNonContracting := [0]
  rhsNonContracting := [0, 1]
  lhsBatch := []
  rhsBatch := []
  wf := dot_S4x128_S256x256x128_S4x256x256_1_2_0_01_n_n_wf
def dot_S256x256x128_S128x128_S256x256x128_2_1_01_0_n_n : DotDims S256x256x128 S128x128 S256x256x128 where
  lhsContracting := [2]
  rhsContracting := [1]
  lhsNonContracting := [0, 1]
  rhsNonContracting := [0]
  lhsBatch := []
  rhsBatch := []
  wf := dot_S256x256x128_S128x128_S256x256x128_2_1_01_0_n_n_wf
def dot_S4x256x256x32_S4x256x256x32_S4x256x256x256_3_3_2_2_01_01 : DotDims S4x256x256x32 S4x256x256x32 S4x256x256x256 where
  lhsContracting := [3]
  rhsContracting := [3]
  lhsNonContracting := [2]
  rhsNonContracting := [2]
  lhsBatch := [0, 1]
  rhsBatch := [0, 1]
  wf := dot_S4x256x256x32_S4x256x256x32_S4x256x256x256_3_3_2_2_01_01_wf
def dot_S4x256x256x256_S4x256x256x32_S4x256x256x32_3_2_2_3_01_01 : DotDims S4x256x256x256 S4x256x256x32 S4x256x256x32 where
  lhsContracting := [3]
  rhsContracting := [2]
  lhsNonContracting := [2]
  rhsNonContracting := [3]
  lhsBatch := [0, 1]
  rhsBatch := [0, 1]
  wf := dot_S4x256x256x256_S4x256x256x32_S4x256x256x32_3_2_2_3_01_01_wf

class Facts : Prop extends Facts₀ where

variable [Facts]
-- ==== Proof.KernelRun.lean ====
/-
  The idealized kernel's program run from any launch memory: every weakly fair execution terminates without a fault,
  the nine argument arrays end as launched, and the result array ends at the contents the last boundary of the program
  names — the first region's write-backs folded into its output array, the second region's likewise, then the one host
  operation that puts the leading unit axis on the result.  The launch, the two regions as segments and the host stretch
  are the generated frame's; only the final state is read at one more array, the result.
-/
import proofs.«127889_j66589172957486_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result array ends at the last boundary's contents `W3`, the arguments as
    launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.RunValue

end
-- ==== Proof.TriAtt.lean ====
/-
  Triangle attention over a 256 × 256 grid of 128-channel rows, as ONE function of the argument arrays on the extended
  reals, index by index.

  A row of 128 channels is normalised (subtract its mean, scale by the reciprocal square root of its variance plus a
  small constant, then an affine map per channel).  From the normalised rows come: a bias `tri h j k` (one number per
  head and per pair of columns: the row at (j, k) against the head's 128 weights), and four projections to 128 channels
  (query, key, value, gate), the channel `32 h + d` belonging to head `h`.  For a grid row `i`, a head `h` and a column
  `j`, the scores over the columns `k` are the 32-term product of the query at (i, j) with the key at (i, k), scaled, plus
  `tri h j k`; they are turned into weights by subtracting their maximum, exponentiating and dividing by the sum; the
  weights average the values at (i, k); the result is multiplied by the logistic of the gate and projected by the
  output weights.  The float literals stay the words they are printed as: the same word stands on both sides.

  The one law proved here: a sum over the 128 channels is the sum over the four heads of the sums over each head's 32
  channels, in any bracketing and behind a leading zero — only commutativity and associativity of addition on the
  extended reals, so no finiteness is needed.
-/
import Idealize.ShloMosaic.PureOps.Ideal
import Idealize.ShloMosaic.PureOps.Ideal.Laws
import Idealize.ShloMosaic.Lib.ValueIdx

noncomputable section

namespace Cert.TriAtt

open Idealize.ShloMosaic Idealize.ShloMosaic.ValueIdx

/-- The divisor 128 of the two means. -/
def c128 : EReal := Ideal.ofBits .f32 0x43000000#32
/-- The small constant added to the variance. -/
def ceps : EReal := Ideal.ofBits .f32 0x3727C5AC#32
/-- The scale of the scores. -/
def cscale : EReal := Ideal.ofBits .f32 0x3E3504F3#32
/-- The value a maximum over a row starts from (minus infinity). -/
def cninf : EReal := Ideal.ofBits .f32 0xFF800000#32

theorem cninf_eq_bot : cninf = ⊥ := by
  unfold cninf; simp [Ideal.ofBits, Ideal.ieee]

/-! ## One row of 128 channels -/

/-- The mean of a row. -/
def mean (r : Fin 128 → EReal) : EReal := Ideal.div (∑ d, r d) c128
/-- The variance of a row: the mean of the squared deviations. -/
def var (r : Fin 128 → EReal) : EReal := Ideal.div (∑ d, (r d - mean r) * (r d - mean r)) c128
/-- The normalised row: deviation times the reciprocal root of (variance + ε), then the affine map `w`, `b`. -/
def ln (w b r : Fin 128 → EReal) (d : Fin 128) : EReal :=
  (r d - mean r) * Ideal.rsqrt (var r + ceps) * w d + b d

/-! ## A row of 256 scores turned into weights -/

/-- The maximum of a row of scores, folded from minus infinity. -/
def rowmax (s : Fin 256 → EReal) : EReal := (Finset.univ : Finset (Fin 256)).fold max cninf s
/-- The exponential of a score's distance below the row's maximum. -/
def pexp (s : Fin 256 → EReal) (k : Fin 256) : EReal := Ideal.exp (s k - rowmax s)
/-- The sum of those exponentials. -/
def psum (s : Fin 256 → EReal) : EReal := ∑ k, pexp s k
/-- The weights: each exponential over their sum. -/
def soft (s : Fin 256 → EReal) (k : Fin 256) : EReal := Ideal.div (pexp s k) (psum s)

/-- Channel `32 h + d`: channel `d` of head `h`. -/
def he (h : Fin 4) (d : Fin 32) : Fin 128 := ⟨h.val * 32 + d.val, by have := h.isLt; have := d.isLt; omega⟩

/-! ## One grid row: 256 columns of 128 channels, with the bias given -/

section row
variable (R : Fin 256 → Fin 128 → EReal) (T : Fin 4 → Fin 256 → Fin 256 → EReal) (w b : Fin 128 → EReal)
  (qw kw vw gw ow : Fin 128 → Fin 128 → EReal)

/-- The normalised row at column `j`. -/
def hnR (j : Fin 256) (d : Fin 128) : EReal := ln w b (R j) d
/-- A projection of the normalised row at column `j` by the weight matrix `W` (row `e` of `W` gives channel `e`). -/
def linR (W : Fin 128 → Fin 128 → EReal) (j : Fin 256) (e : Fin 128) : EReal := ∑ d, hnR R w b j d * W e d
/-- The score of head `h` between columns `j` and `k`: query against key over the head's 32 channels, scaled, plus the bias. -/
def scoreR (h : Fin 4) (j k : Fin 256) : EReal :=
  (∑ d : Fin 32, linR R w b qw j (he h d) * linR R w b kw k (he h d)) * cscale + T h j k
/-- The weighted average of the values: channel `d` of head `h` at column `j`. -/
def ctxR (h : Fin 4) (j : Fin 256) (d : Fin 32) : EReal :=
  ∑ k, soft (scoreR R T w b qw kw h j) k * linR R w b vw k (he h d)
/-- The gate at column `j`, channel `e`. -/
def gateR (j : Fin 256) (e : Fin 128) : EReal := Ideal.logistic (linR R w b gw j e)
/-- The gated average at column `j`, channel `e` = `32 h + d`. -/
def gatedR (j : Fin 256) (e : Fin 128) : EReal :=
  ctxR R T w b qw kw vw ⟨e.val / 32, by have := e.isLt; omega⟩ j ⟨e.val % 32, Nat.mod_lt _ (by decide)⟩ * gateR R w b gw j e
/-- The result at column `j`, output channel `c`: the gated averages against row `c` of the output weights. -/
def outR (j : Fin 256) (c : Fin 128) : EReal := ∑ e, gatedR R T w b qw kw vw gw j e * ow c e
/-- One head's share of the result: the sum over that head's 32 channels. -/
def headOutR (h : Fin 4) (j : Fin 256) (c : Fin 128) : EReal :=
  ∑ d : Fin 32, (ctxR R T w b qw kw vw h j d * gateR R w b gw j (he h d)) * ow c (he h d)
end row

/-! ## The law: 128 channels are four heads of 32 -/

/-- A sum over the 128 channels, head by head. -/
theorem sum_heads (f : Fin 128 → EReal) :
    ∑ e, f e = ∑ h : Fin 4, ∑ d : Fin 32, f (he h d) := by
  rw [← Fintype.sum_prod_type']
  refine (Fintype.sum_equiv (finProdFinEquiv (m := 4) (n := 32)) _ _ fun p => ?_).symm
  congr 1
  apply Fin.ext
  simp only [he, finProdFinEquiv_apply_val]
  omega

theorem he_div (h : Fin 4) (d : Fin 32) : (⟨(he h d).val / 32, by have := (he h d).isLt; omega⟩ : Fin 4) = h := by
  apply Fin.ext; have := h.isLt; have := d.isLt; simp only [he]; omega
theorem he_mod (h : Fin 4) (d : Fin 32) : (⟨(he h d).val % 32, Nat.mod_lt _ (by decide)⟩ : Fin 32) = d := by
  apply Fin.ext; have := h.isLt; have := d.isLt; simp only [he]; omega

section rowlaw
variable (R : Fin 256 → Fin 128 → EReal) (T : Fin 4 → Fin 256 → Fin 256 → EReal) (w b : Fin 128 → EReal)
  (qw kw vw gw ow : Fin 128 → Fin 128 → EReal)

/-- The gated average at a head's channel. -/
theorem gatedR_he (j : Fin 256) (h : Fin 4) (d : Fin 32) :
    gatedR R T w b qw kw vw gw j (he h d) = ctxR R T w b qw kw vw h j d * gateR R w b gw j (he h d) := by
  unfold gatedR; rw [he_div, he_mod]

/-- The result is the four heads' shares added one after the other onto zero. -/
theorem outR_eq_heads (j : Fin 256) (c : Fin 128) :
    outR R T w b qw kw vw gw ow j c
      = 0 + headOutR R T w b qw kw vw gw ow 0 j c + headOutR R T w b qw kw vw gw ow 1 j c
          + headOutR R T w b qw kw vw gw ow 2 j c + headOutR R T w b qw kw vw gw ow 3 j c := by
  unfold outR
  rw [sum_heads, Fin.sum_univ_four, zero_add]
  simp only [gatedR_he, headOutR]
end rowlaw

/-! ## The whole grid -/

section grid
variable (X : Fin 256 → Fin 256 → Fin 128 → EReal) (w b : Fin 128 → EReal) (bw : Fin 4 → Fin 128 → EReal)
  (qw kw vw gw ow : Fin 128 → Fin 128 → EReal)

/-- The bias of head `h` between columns `j` and `k`: the head's weights against the normalised row at grid position
    (j, k). It is the same for every grid row of the attention. -/
def tri (h : Fin 4) (j k : Fin 256) : EReal := ∑ d, bw h d * ln w b (X j k) d
/-- The result at grid position (i, j), output channel `c`: grid row `i` attended over its columns under the bias. -/
def out (i j : Fin 256) (c : Fin 128) : EReal := outR (X i) (tri X w b bw) w b qw kw vw gw ow j c
end grid

/-! ## The arrays as functions of coordinates -/

/-- A [1, 256, 256, 128] array as a function of (row, column, channel). -/
def X4 (x : (⟨4, ![1, 256, 256, 128]⟩ : Shape).Idx → EReal) (i j : Fin 256) (d : Fin 128) : EReal := x (ix4 (0 : Fin 1) i j d)
/-- A [128] array as a function of the channel. -/
def V1 (x : (⟨1, ![128]⟩ : Shape).Idx → EReal) (d : Fin 128) : EReal := x (ix1 d)
/-- A [4, 128] array as a function of (head, channel). -/
def M4 (x : (⟨2, ![4, 128]⟩ : Shape).Idx → EReal) (h : Fin 4) (d : Fin 128) : EReal := x (ix2 h d)
/-- A [128, 128] array as a function of (row, column). -/
def M2 (x : (⟨2, ![128, 128]⟩ : Shape).Idx → EReal) (e d : Fin 128) : EReal := x (ix2 e d)

/-- The bias array [4, 256, 256] as a function of the argument arrays. -/
def triArr (x0 : (⟨4, ![1, 256, 256, 128]⟩ : Shape).Idx → EReal) (x1 x2 : (⟨1, ![128]⟩ : Shape).Idx → EReal)
    (x3 : (⟨2, ![4, 128]⟩ : Shape).Idx → EReal) : (⟨3, ![4, 256, 256]⟩ : Shape).Idx → EReal :=
  fun y => tri (X4 x0) (V1 x1) (V1 x2) (M4 x3) ⟨(y 0).val, (y 0).isLt⟩ ⟨(y 1).val, (y 1).isLt⟩ ⟨(y 2).val, (y 2).isLt⟩

/-- The result before the leading unit axis is added: [256, 256, 128]. -/
def outArr (x0 : (⟨4, ![1, 256, 256, 128]⟩ : Shape).Idx → EReal) (x1 x2 : (⟨1, ![128]⟩ : Shape).Idx → EReal)
    (x3 : (⟨2, ![4, 128]⟩ : Shape).Idx → EReal) (x4 x5 x6 x7 x8 : (⟨2, ![128, 128]⟩ : Shape).Idx → EReal) :
    (⟨3, ![256, 256, 128]⟩ : Shape).Idx → EReal :=
  fun y => out (X4 x0) (V1 x1) (V1 x2) (M4 x3) (M2 x4) (M2 x5) (M2 x6) (M2 x7) (M2 x8)
    ⟨(y 0).val, (y 0).isLt⟩ ⟨(y 1).val, (y 1).isLt⟩ ⟨(y 2).val, (y 2).isLt⟩

/-- The result [1, 256, 256, 128]: the same numbers under a leading unit axis. -/
def result (x0 : (⟨4, ![1, 256, 256, 128]⟩ : Shape).Idx → EReal) (x1 x2 : (⟨1, ![128]⟩ : Shape).Idx → EReal)
    (x3 : (⟨2, ![4, 128]⟩ : Shape).Idx → EReal) (x4 x5 x6 x7 x8 : (⟨2, ![128, 128]⟩ : Shape).Idx → EReal) :
    (⟨4, ![1, 256, 256, 128]⟩ : Shape).Idx → EReal :=
  fun y => out (X4 x0) (V1 x1) (V1 x2) (M4 x3) (M2 x4) (M2 x5) (M2 x6) (M2 x7) (M2 x8)
    ⟨(y 1).val, (y 1).isLt⟩ ⟨(y 2).val, (y 2).isLt⟩ ⟨(y 3).val, (y 3).isLt⟩

end Cert.TriAtt

end
-- ==== Proof.AttnDots.lean ====
/-
  The four matrix products of the attention region, each read at one output index at the exact values: a product into a
  zero accumulator is the plain sum, over the contracted axis, of the two operands' entries.
    · rows [4096,128] against a weight slice [32,128], both contracted on their second axis (a projection to one head);
    · queries [16,256,32] against keys [16,256,32], contracted on the head's 32 channels, the first axis a batch;
    · weights [16,256,256] against values [16,256,32], contracted on the 256 columns, the first axis a batch;
    · gated averages [4096,32] against an output-weight slice [128,32], contracted on the head's 32 channels.
-/
import proofs.«127889_j66589172957486_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Idealize.ShloMosaic Idealize.ShloMosaic.ValueIdx Cert.KernelIdeal

theorem proj_dot_lhs0 (i : S4096x32.Idx) (q : dot_S4096x128_S32x128_S4096x32_1_1_0_0_n_n.contr.Idx) :
    (dot_S4096x128_S32x128_S4096x32_1_1_0_0_n_n.lhsIdx i q 0).val = (i 0).val := by
  unfold DotDims.lhsIdx
  rw [dif_neg (show ¬(0 : Fin S4096x128.rank) ∈ dot_S4096x128_S32x128_S4096x32_1_1_0_0_n_n.lhsBatch by decide), dif_pos (show (0 : Fin S4096x128.rank) ∈ dot_S4096x128_S32x128_S4096x32_1_1_0_0_n_n.lhsNonContracting by decide)]
  rfl
theorem proj_dot_lhs1 (i : S4096x32.Idx) (q : dot_S4096x128_S32x128_S4096x32_1_1_0_0_n_n.contr.Idx) :
    (dot_S4096x128_S32x128_S4096x32_1_1_0_0_n_n.lhsIdx i q 1).val = (q ⟨0, by decide⟩).val :=
  dot_S4096x128_S32x128_S4096x32_1_1_0_0_n_n.lhsIdx_val_of_single rfl i q
theorem proj_dot_rhs0 (i : S4096x32.Idx) (q : dot_S4096x128_S32x128_S4096x32_1_1_0_0_n_n.contr.Idx) :
    (dot_S4096x128_S32x128_S4096x32_1_1_0_0_n_n.rhsIdx i q 0).val = (i 1).val := by
  unfold DotDims.rhsIdx
  rw [dif_neg (show ¬(0 : Fin S32x128.rank) ∈ dot_S4096x128_S32x128_S4096x32_1_1_0_0_n_n.rhsBatch by decide), dif_pos (show (0 : Fin S32x128.rank) ∈ dot_S4096x128_S32x128_S4096x32_1_1_0_0_n_n.rhsNonContracting by decide)]
  rfl
theorem proj_dot_rhs1 (i : S4096x32.Idx) (q : dot_S4096x128_S32x128_S4096x32_1_1_0_0_n_n.contr.Idx) :
    (dot_S4096x128_S32x128_S4096x32_1_1_0_0_n_n.rhsIdx i q 1).val = (q ⟨0, by decide⟩).val :=
  dot_S4096x128_S32x128_S4096x32_1_1_0_0_n_n.rhsIdx_val_of_single rfl i q
/-- A projection to one head: row `p` of the left against row `e` of the slice. -/
theorem proj_dot {φ₁ φ₂ : FTy} (l : FVec Ideal S4096x128 φ₁) (r : FVec Ideal S32x128 φ₂) (p : Fin 4096) (e : Fin 32) :
    matmul dot_S4096x128_S32x128_S4096x32_1_1_0_0_n_n none l r (constant S4096x32 .f32 0x00000000#32) (ix2 p e)
      = ∑ d : Fin 128, l (ix2 p d) * r (ix2 e d) := by
  simp only [matmul]
  rw [Ideal.matmul_constant_zero_apply, ← Equiv.sum_comp (ValueIdx.contrEquiv1 dot_S4096x128_S32x128_S4096x32_1_1_0_0_n_n 128 rfl rfl).symm]
  refine Finset.sum_congr rfl fun d _ => ?_
  have hk := ValueIdx.contrEquiv1_symm_val dot_S4096x128_S32x128_S4096x32_1_1_0_0_n_n 128 rfl rfl d
  have el : dot_S4096x128_S32x128_S4096x32_1_1_0_0_n_n.lhsIdx (ix2 p e) ((ValueIdx.contrEquiv1 dot_S4096x128_S32x128_S4096x32_1_1_0_0_n_n 128 rfl rfl).symm d) = ix2 p d := funext fun ax => Fin.ext (by
    match ax with
    | ⟨0, _⟩ => exact proj_dot_lhs0 _ _
    | ⟨1, _⟩ => exact (proj_dot_lhs1 _ _).trans hk)
  have er : dot_S4096x128_S32x128_S4096x32_1_1_0_0_n_n.rhsIdx (ix2 p e) ((ValueIdx.contrEquiv1 dot_S4096x128_S32x128_S4096x32_1_1_0_0_n_n 128 rfl rfl).symm d) = ix2 e d := funext fun ax => Fin.ext (by
    match ax with
    | ⟨0, _⟩ => exact proj_dot_rhs0 _ _
    | ⟨1, _⟩ => exact (proj_dot_rhs1 _ _).trans hk)
  rw [el, er]

theorem qk_dot_lhs0 (i : S16x256x256.Idx) (q : dot_S16x256x32_S16x256x32_S16x256x256_2_2_1_1_0_0.contr.Idx) :
    (dot_S16x256x32_S16x256x32_S16x256x256_2_2_1_1_0_0.lhsIdx i q 0).val = (i 0).val := by
  unfold DotDims.lhsIdx
  rw [dif_pos (show (0 : Fin S16x256x32.rank) ∈ dot_S16x256x32_S16x256x32_S16x256x256_2_2_1_1_0_0.lhsBatch by decide)]
  rfl
theorem qk_dot_lhs1 (i : S16x256x256.Idx) (q : dot_S16x256x32_S16x256x32_S16x256x256_2_2_1_1_0_0.contr.Idx) :
    (dot_S16x256x32_S16x256x32_S16x256x256_2_2_1_1_0_0.lhsIdx i q 1).val = (i 1).val := by
  unfold DotDims.lhsIdx
  rw [dif_neg (show ¬(1 : Fin S16x256x32.rank) ∈ dot_S16x256x32_S16x256x32_S16x256x256_2_2_1_1_0_0.lhsBatch by decide), dif_pos (show (1 : Fin S16x256x32.rank) ∈ dot_S16x256x32_S16x256x32_S16x256x256_2_2_1_1_0_0.lhsNonContracting by decide)]
  rfl
theorem qk_dot_lhs2 (i : S16x256x256.Idx) (q : dot_S16x256x32_S16x256x32_S16x256x256_2_2_1_1_0_0.contr.Idx) :
    (dot_S16x256x32_S16x256x32_S16x256x256_2_2_1_1_0_0.lhsIdx i q 2).val = (q ⟨0, by decide⟩).val :=
  dot_S16x256x32_S16x256x32_S16x256x256_2_2_1_1_0_0.lhsIdx_val_of_single rfl i q
theorem qk_dot_rhs0 (i : S16x256x256.Idx) (q : dot_S16x256x32_S16x256x32_S16x256x256_2_2_1_1_0_0.contr.Idx) :
    (dot_S16x256x32_S16x256x32_S16x256x256_2_2_1_1_0_0.rhsIdx i q 0).val = (i 0).val := by
  unfold DotDims.rhsIdx
  rw [dif_pos (show (0 : Fin S16x256x32.rank) ∈ dot_S16x256x32_S16x256x32_S16x256x256_2_2_1_1_0_0.rhsBatch by decide)]
  rfl
theorem qk_dot_rhs1 (i : S16x256x256.Idx) (q : dot_S16x256x32_S16x256x32_S16x256x256_2_2_1_1_0_0.contr.Idx) :
    (dot_S16x256x32_S16x256x32_S16x256x256_2_2_1_1_0_0.rhsIdx i q 1).val = (i 2).val := by
  unfold DotDims.rhsIdx
  rw [dif_neg (show ¬(1 : Fin S16x256x32.rank) ∈ dot_S16x256x32_S16x256x32_S16x256x256_2_2_1_1_0_0.rhsBatch by decide), dif_pos (show (1 : Fin S16x256x32.rank) ∈ dot_S16x256x32_S16x256x32_S16x256x256_2_2_1_1_0_0.rhsNonContracting by decide)]
  rfl
theorem qk_dot_rhs2 (i : S16x256x256.Idx) (q : dot_S16x256x32_S16x256x32_S16x256x256_2_2_1_1_0_0.contr.Idx) :
    (dot_S16x256x32_S16x256x32_S16x256x256_2_2_1_1_0_0.rhsIdx i q 2).val = (q ⟨0, by decide⟩).val :=
  dot_S16x256x32_S16x256x32_S16x256x256_2_2_1_1_0_0.rhsIdx_val_of_single rfl i q
/-- Query at (a, j) against key at (a, k) over the head's 32 channels. -/
theorem qk_dot {φ₁ φ₂ : FTy} (l : FVec Ideal S16x256x32 φ₁) (r : FVec Ideal S16x256x32 φ₂) (a : Fin 16) (j k : Fin 256) :
    matmul dot_S16x256x32_S16x256x32_S16x256x256_2_2_1_1_0_0 none l r (constant S16x256x256 .f32 0x00000000#32) (ix3 a j k)
      = ∑ e : Fin 32, l (ix3 a j e) * r (ix3 a k e) := by
  simp only [matmul]
  rw [Ideal.matmul_constant_zero_apply, ← Equiv.sum_comp (ValueIdx.contrEquiv1 dot_S16x256x32_S16x256x32_S16x256x256_2_2_1_1_0_0 32 rfl rfl).symm]
  refine Finset.sum_congr rfl fun e _ => ?_
  have hk := ValueIdx.contrEquiv1_symm_val dot_S16x256x32_S16x256x32_S16x256x256_2_2_1_1_0_0 32 rfl rfl e
  have el : dot_S16x256x32_S16x256x32_S16x256x256_2_2_1_1_0_0.lhsIdx (ix3 a j k) ((ValueIdx.contrEquiv1 dot_S16x256x32_S16x256x32_S16x256x256_2_2_1_1_0_0 32 rfl rfl).symm e) = ix3 a j e := funext fun ax => Fin.ext (by
    match ax with
    | ⟨0, _⟩ => exact qk_dot_lhs0 _ _
    | ⟨1, _⟩ => exact qk_dot_lhs1 _ _
    | ⟨2, _⟩ => exact (qk_dot_lhs2 _ _).trans hk)
  have er : dot_S16x256x32_S16x256x32_S16x256x256_2_2_1_1_0_0.rhsIdx (ix3 a j k) ((ValueIdx.contrEquiv1 dot_S16x256x32_S16x256x32_S16x256x256_2_2_1_1_0_0 32 rfl rfl).symm e) = ix3 a k e := funext fun ax => Fin.ext (by
    match ax with
    | ⟨0, _⟩ => exact qk_dot_rhs0 _ _
    | ⟨1, _⟩ => exact qk_dot_rhs1 _ _
    | ⟨2, _⟩ => exact (qk_dot_rhs2 _ _).trans hk)
  rw [el, er]

theorem av_dot_lhs0 (i : S16x256x32.Idx) (q : dot_S16x256x256_S16x256x32_S16x256x32_2_1_1_2_0_0.contr.Idx) :
    (dot_S16x256x256_S16x256x32_S16x256x32_2_1_1_2_0_0.lhsIdx i q 0).val = (i 0).val := by
  unfold DotDims.lhsIdx
  rw [dif_pos (show (0 : Fin S16x256x256.rank) ∈ dot_S16x256x256_S16x256x32_S16x256x32_2_1_1_2_0_0.lhsBatch by decide)]
  rfl
theorem av_dot_lhs1 (i : S16x256x32.Idx) (q : dot_S16x256x256_S16x256x32_S16x256x32_2_1_1_2_0_0.contr.Idx) :
    (dot_S16x256x256_S16x256x32_S16x256x32_2_1_1_2_0_0.lhsIdx i q 1).val = (i 1).val := by
  unfold DotDims.lhsIdx
  rw [dif_neg (show ¬(1 : Fin S16x256x256.rank) ∈ dot_S16x256x256_S16x256x32_S16x256x32_2_1_1_2_0_0.lhsBatch by decide), dif_pos (show (1 : Fin S16x256x256.rank) ∈ dot_S16x256x256_S16x256x32_S16x256x32_2_1_1_2_0_0.lhsNonContracting by decide)]
  rfl
theorem av_dot_lhs2 (i : S16x256x32.Idx) (q : dot_S16x256x256_S16x256x32_S16x256x32_2_1_1_2_0_0.contr.Idx) :
    (dot_S16x256x256_S16x256x32_S16x256x32_2_1_1_2_0_0.lhsIdx i q 2).val = (q ⟨0, by decide⟩).val :=
  dot_S16x256x256_S16x256x32_S16x256x32_2_1_1_2_0_0.lhsIdx_val_of_single rfl i q
theorem av_dot_rhs0 (i : S16x256x32.Idx) (q : dot_S16x256x256_S16x256x32_S16x256x32_2_1_1_2_0_0.contr.Idx) :
    (dot_S16x256x256_S16x256x32_S16x256x32_2_1_1_2_0_0.rhsIdx i q 0).val = (i 0).val := by
  unfold DotDims.rhsIdx
  rw [dif_pos (show (0 : Fin S16x256x32.rank) ∈ dot_S16x256x256_S16x256x32_S16x256x32_2_1_1_2_0_0.rhsBatch by decide)]
  rfl
theorem av_dot_rhs1 (i : S16x256x32.Idx) (q : dot_S16x256x256_S16x256x32_S16x256x32_2_1_1_2_0_0.contr.Idx) :
    (dot_S16x256x256_S16x256x32_S16x256x32_2_1_1_2_0_0.rhsIdx i q 1).val = (q ⟨0, by decide⟩).val :=
  dot_S16x256x256_S16x256x32_S16x256x32_2_1_1_2_0_0.rhsIdx_val_of_single rfl i q
theorem av_dot_rhs2 (i : S16x256x32.Idx) (q : dot_S16x256x256_S16x256x32_S16x256x32_2_1_1_2_0_0.contr.Idx) :
    (dot_S16x256x256_S16x256x32_S16x256x32_2_1_1_2_0_0.rhsIdx i q 2).val = (i 2).val := by
  unfold DotDims.rhsIdx
  rw [dif_neg (show ¬(2 : Fin S16x256x32.rank) ∈ dot_S16x256x256_S16x256x32_S16x256x32_2_1_1_2_0_0.rhsBatch by decide), dif_pos (show (2 : Fin S16x256x32.rank) ∈ dot_S16x256x256_S16x256x32_S16x256x32_2_1_1_2_0_0.rhsNonContracting by decide)]
  rfl
/-- Weights at (a, j, ·) against the values at (a, ·, e) over the 256 columns. -/
theorem av_dot {φ₁ φ₂ : FTy} (l : FVec Ideal S16x256x256 φ₁) (r : FVec Ideal S16x256x32 φ₂) (a : Fin 16) (j : Fin 256) (e : Fin 32) :
    matmul dot_S16x256x256_S16x256x32_S16x256x32_2_1_1_2_0_0 none l r (constant S16x256x32 .f32 0x00000000#32) (ix3 a j e)
      = ∑ k : Fin 256, l (ix3 a j k) * r (ix3 a k e) := by
  simp only [matmul]
  rw [Ideal.matmul_constant_zero_apply, ← Equiv.sum_comp (ValueIdx.contrEquiv1 dot_S16x256x256_S16x256x32_S16x256x32_2_1_1_2_0_0 256 rfl rfl).symm]
  refine Finset.sum_congr rfl fun k _ => ?_
  have hk := ValueIdx.contrEquiv1_symm_val dot_S16x256x256_S16x256x32_S16x256x32_2_1_1_2_0_0 256 rfl rfl k
  have el : dot_S16x256x256_S16x256x32_S16x256x32_2_1_1_2_0_0.lhsIdx (ix3 a j e) ((ValueIdx.contrEquiv1 dot_S16x256x256_S16x256x32_S16x256x32_2_1_1_2_0_0 256 rfl rfl).symm k) = ix3 a j k := funext fun ax => Fin.ext (by
    match ax with
    | ⟨0, _⟩ => exact av_dot_lhs0 _ _
    | ⟨1, _⟩ => exact av_dot_lhs1 _ _
    | ⟨2, _⟩ => exact (av_dot_lhs2 _ _).trans hk)
  have er : dot_S16x256x256_S16x256x32_S16x256x32_2_1_1_2_0_0.rhsIdx (ix3 a j e) ((ValueIdx.contrEquiv1 dot_S16x256x256_S16x256x32_S16x256x32_2_1_1_2_0_0 256 rfl rfl).symm k) = ix3 a k e := funext fun ax => Fin.ext (by
    match ax with
    | ⟨0, _⟩ => exact av_dot_rhs0 _ _
    | ⟨1, _⟩ => exact (av_dot_rhs1 _ _).trans hk
    | ⟨2, _⟩ => exact av_dot_rhs2 _ _)
  rw [el, er]

theorem out_dot_lhs0 (i : S4096x128.Idx) (q : dot_S4096x32_S128x32_S4096x128_1_1_0_0_n_n.contr.Idx) :
    (dot_S4096x32_S128x32_S4096x128_1_1_0_0_n_n.lhsIdx i q 0).val = (i 0).val := by
  unfold DotDims.lhsIdx
  rw [dif_neg (show ¬(0 : Fin S4096x32.rank) ∈ dot_S4096x32_S128x32_S4096x128_1_1_0_0_n_n.lhsBatch by decide), dif_pos (show (0 : Fin S4096x32.rank) ∈ dot_S4096x32_S128x32_S4096x128_1_1_0_0_n_n.lhsNonContracting by decide)]
  rfl
theorem out_dot_lhs1 (i : S4096x128.Idx) (q : dot_S4096x32_S128x32_S4096x128_1_1_0_0_n_n.contr.Idx) :
    (dot_S4096x32_S128x32_S4096x128_1_1_0_0_n_n.lhsIdx i q 1).val = (q ⟨0, by decide⟩).val :=
  dot_S4096x32_S128x32_S4096x128_1_1_0_0_n_n.lhsIdx_val_of_single rfl i q
theorem out_dot_rhs0 (i : S4096x128.Idx) (q : dot_S4096x32_S128x32_S4096x128_1_1_0_0_n_n.contr.Idx) :
    (dot_S4096x32_S128x32_S4096x128_1_1_0_0_n_n.rhsIdx i q 0).val = (i 1).val := by
  unfold DotDims.rhsIdx
  rw [dif_neg (show ¬(0 : Fin S128x32.rank) ∈ dot_S4096x32_S128x32_S4096x128_1_1_0_0_n_n.rhsBatch by decide), dif_pos (show (0 : Fin S128x32.rank) ∈ dot_S4096x32_S128x32_S4096x128_1_1_0_0_n_n.rhsNonContracting by decide)]
  rfl
theorem out_dot_rhs1 (i : S4096x128.Idx) (q : dot_S4096x32_S128x32_S4096x128_1_1_0_0_n_n.contr.Idx) :
    (dot_S4096x32_S128x32_S4096x128_1_1_0_0_n_n.rhsIdx i q 1).val = (q ⟨0, by decide⟩).val :=
  dot_S4096x32_S128x32_S4096x128_1_1_0_0_n_n.rhsIdx_val_of_single rfl i q
/-- Gated averages of row `p` against row `c` of the output-weight slice over the head's 32 channels. -/
theorem out_dot {φ₁ φ₂ : FTy} (l : FVec Ideal S4096x32 φ₁) (r : FVec Ideal S128x32 φ₂) (p : Fin 4096) (c : Fin 128) :
    matmul dot_S4096x32_S128x32_S4096x128_1_1_0_0_n_n none l r (constant S4096x128 .f32 0x00000000#32) (ix2 p c)
      = ∑ e : Fin 32, l (ix2 p e) * r (ix2 c e) := by
  simp only [matmul]
  rw [Ideal.matmul_constant_zero_apply, ← Equiv.sum_comp (ValueIdx.contrEquiv1 dot_S4096x32_S128x32_S4096x128_1_1_0_0_n_n 32 rfl rfl).symm]
  refine Finset.sum_congr rfl fun e _ => ?_
  have hk := ValueIdx.contrEquiv1_symm_val dot_S4096x32_S128x32_S4096x128_1_1_0_0_n_n 32 rfl rfl e
  have el : dot_S4096x32_S128x32_S4096x128_1_1_0_0_n_n.lhsIdx (ix2 p c) ((ValueIdx.contrEquiv1 dot_S4096x32_S128x32_S4096x128_1_1_0_0_n_n 32 rfl rfl).symm e) = ix2 p e := funext fun ax => Fin.ext (by
    match ax with
    | ⟨0, _⟩ => exact out_dot_lhs0 _ _
    | ⟨1, _⟩ => exact (out_dot_lhs1 _ _).trans hk)
  have er : dot_S4096x32_S128x32_S4096x128_1_1_0_0_n_n.rhsIdx (ix2 p c) ((ValueIdx.contrEquiv1 dot_S4096x32_S128x32_S4096x128_1_1_0_0_n_n 32 rfl rfl).symm e) = ix2 c e := funext fun ax => Fin.ext (by
    match ax with
    | ⟨0, _⟩ => exact out_dot_rhs0 _ _
    | ⟨1, _⟩ => exact (out_dot_rhs1 _ _).trans hk)
  rw [el, er]

end Cert.KernelIdeal.AttnValue

end
-- ==== Proof.AttnOps.lean ====
/-
  What the attention region's body does for ONE head, as six array functions, each read at an index.
  From the block's normalised rows (4096 rows of 128 channels) and a head's weight slices:
    · the projection to the head's 32 channels, back on the [16, 256, 32] grid (queries, keys, values);
    · the gate: the logistic of such a projection;
    · the scores [16, 256, 256]: queries against keys, scaled, plus the head's bias (the same for each of the 16 rows);
    · the exponentials of the scores' distances below their row's maximum, and their row sums;
    · the gated average: (exponentials over their row sum) against the values, times the gate, laid out as 4096 rows;
    · the head's share added to the running result: the gated average against the head's slice of the output weights.
-/
import proofs.«127889_j66589172957486_2_alg».proof.Proof.Gen.KernelIdeal.Frame
import proofs.«127889_j66589172957486_2_alg».proof.Proof.TriAtt
import proofs.«127889_j66589172957486_2_alg».proof.Proof.AttnDots
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Idealize.ShloMosaic Idealize.ShloMosaic.ValueIdx Cert.KernelIdeal Cert.KernelIdeal.Facts₀ Cert.TriAtt

variable {α : Type}

/-- Row 256 a + j of the block laid out as 4096 rows. -/
def rowIdx (a : Fin 16) (j : Fin 256) : Fin 4096 := ⟨a.val * 256 + j.val, by have := a.isLt; have := j.isLt; omega⟩

/-! ## Layouts -/

/-- 4096 rows of 32 back on the [16, 256, 32] grid. -/
theorem grid32_apply (x : S4096x32.Idx → α) (h : S4096x32.ShapeCasts S16x256x32) (a : Fin 16) (j : Fin 256) (e : Fin 32) :
    shapeCast S16x256x32 x h (ix3 a j e) = x (ix2 (rowIdx a j) e) :=
  shapeCast_apply x _ (ix3 a j e) (ix2 (rowIdx a j) e) (by
    rw [Shape.rowMajor_val_two, Shape.rowMajor_val_three]; rfl)

/-- The [16, 256, 32] grid as 4096 rows of 32. -/
theorem rows32_apply (x : S16x256x32.Idx → α) (h : S16x256x32.ShapeCasts S4096x32) (a : Fin 16) (j : Fin 256) (e : Fin 32) :
    shapeCast S4096x32 x h (ix2 (rowIdx a j) e) = x (ix3 a j e) :=
  shapeCast_apply x _ (ix2 (rowIdx a j) e) (ix3 a j e) (by
    rw [Shape.rowMajor_val_two, Shape.rowMajor_val_three]; rfl)

/-- 4096 rows of 128 back on the [16, 256, 128] grid. -/
theorem grid128_apply (x : S4096x128.Idx → α) (h : S4096x128.ShapeCasts S16x256x128) (a : Fin 16) (j : Fin 256) (c : Fin 128) :
    shapeCast S16x256x128 x h (ix3 a j c) = x (ix2 (rowIdx a j) c) :=
  shapeCast_apply x _ (ix3 a j c) (ix2 (rowIdx a j) c) (by
    rw [Shape.rowMajor_val_two, Shape.rowMajor_val_three]; rfl)

/-- A per-row number of the [16, 256] grid kept as a column of width one. -/
theorem col1_apply (x : S16x256.Idx → α) (h : S16x256.ShapeCasts S16x256x1) (a : Fin 16) (j : Fin 256) (u : Fin 1) :
    shapeCast S16x256x1 x h (ix3 a j u) = x (ix2 a j) :=
  shapeCast_apply x _ (ix3 a j u) (ix2 a j) (by
    rw [Shape.rowMajor_val_two, Shape.rowMajor_val_three]
    show a.val * 256 + j.val = (a.val * 256 + j.val) * 1 + u.val
    have := u.isLt; omega)

/-- That column spread over the 256 columns of the scores. -/
theorem spread256_apply (x : S16x256x1.Idx → α) (h : S16x256x1.Broadcasts S16x256x256) (a : Fin 16) (j k : Fin 256) :
    broadcastTo S16x256x256 x h (ix3 a j k) = x (ix3 a j (0 : Fin 1)) :=
  broadcastTo_apply x _ (ix3 a j k) (ix3 a j (0 : Fin 1)) (fun ax => by
    match ax with
    | ⟨0, _⟩ => rfl
    | ⟨1, _⟩ => rfl
    | ⟨2, _⟩ => rfl)

/-- One head's bias [1, 256, 256] spread over the 16 rows of the block. -/
theorem spread16_apply (x : S1x256x256.Idx → α) (h : S1x256x256.Broadcasts S16x256x256) (a : Fin 16) (j k : Fin 256) :
    broadcastTo S16x256x256 x h (ix3 a j k) = x (ix3 (0 : Fin 1) j k) :=
  broadcastTo_apply x _ (ix3 a j k) (ix3 (0 : Fin 1) j k) (fun ax => by
    match ax with
    | ⟨0, _⟩ => rfl
    | ⟨1, _⟩ => rfl
    | ⟨2, _⟩ => rfl)

/-- The index a reduction over the 256 columns runs through. -/
theorem lift_col (hr : S16x256x256.Reduces [2] S16x256) (a : Fin 16) (j k : Fin 256) :
    hr.lift (ix2 a j) k = ix3 a j k :=
  funext fun ax => Fin.ext (by
    match ax with
    | ⟨0, _⟩ => rfl
    | ⟨1, _⟩ => rfl
    | ⟨2, _⟩ => rfl)

/-! ## One head -/

/-- The projection of the normalised rows onto a head's 32 channels. -/
def projH (hn : FVec Ideal S4096x128 .bf16) (ws : FVec Ideal S32x128 .bf16) : FVec Ideal S16x256x32 .bf16 :=
  truncf .bf16 (shapeCast S16x256x32 (matmul dot_S4096x128_S32x128_S4096x32_1_1_0_0_n_n none hn ws
    (constant S4096x32 .f32 0x00000000#32)) shapeCasts_S4096x32_S16x256x32) bitsLt_bf16_f32

theorem projH_apply (hn : FVec Ideal S4096x128 .bf16) (ws : FVec Ideal S32x128 .bf16) (a : Fin 16) (j : Fin 256) (e : Fin 32) :
    projH hn ws (ix3 a j e) = ∑ d : Fin 128, hn (ix2 (rowIdx a j) d) * ws (ix2 e d) := by
  unfold projH
  rw [truncf_apply, grid32_apply, proj_dot]

/-- The gate: the logistic of the projection by the gate weights. -/
def gateH (hn : FVec Ideal S4096x128 .bf16) (ws : FVec Ideal S32x128 .bf16) : FVec Ideal S16x256x32 .f32 :=
  shapeCast S16x256x32 (logistic (matmul dot_S4096x128_S32x128_S4096x32_1_1_0_0_n_n none hn ws
    (constant S4096x32 .f32 0x00000000#32))) shapeCasts_S4096x32_S16x256x32

theorem gateH_apply (hn : FVec Ideal S4096x128 .bf16) (ws : FVec Ideal S32x128 .bf16) (a : Fin 16) (j : Fin 256) (e : Fin 32) :
    gateH hn ws (ix3 a j e) = Ideal.logistic (∑ d : Fin 128, hn (ix2 (rowIdx a j) d) * ws (ix2 e d)) := by
  unfold gateH
  rw [grid32_apply]
  show Ideal.logistic (matmul dot_S4096x128_S32x128_S4096x32_1_1_0_0_n_n none hn ws
    (constant S4096x32 .f32 0x00000000#32) (ix2 (rowIdx a j) e)) = _
  rw [proj_dot]

/-- The scores: queries against keys over the head's channels, scaled, plus the head's bias. -/
def scoreH (q k : FVec Ideal S16x256x32 .bf16) (bias : Vec Ideal S1x256x256 .f32) : FVec Ideal S16x256x256 .f32 :=
  addf (mulf (matmul dot_S16x256x32_S16x256x32_S16x256x256_2_2_1_1_0_0 none q k (constant S16x256x256 .f32 0x00000000#32))
      (broadcast S16x256x256 (Scalar.ofBits .f32 0x3E3504F3#32)))
    (broadcastTo S16x256x256 (shapeCast S1x256x256 (shapeCast S256x256 bias shapeCasts_S1x256x256_S256x256)
      shapeCasts_S256x256_S1x256x256) broadcasts_S1x256x256_S16x256x256)

theorem scoreH_apply (q k : FVec Ideal S16x256x32 .bf16) (bias : Vec Ideal S1x256x256 .f32) (a : Fin 16) (j k' : Fin 256) :
    scoreH q k bias (ix3 a j k') = (∑ e : Fin 32, q (ix3 a j e) * k (ix3 a k' e)) * cscale + bias (ix3 (0 : Fin 1) j k') := by
  unfold scoreH
  rw [addf_apply, mulf_apply, qk_dot, broadcast_apply, spread16_apply, shapeCast_shapeCast]
  rfl

/-- The exponentials of the scores' distances below their row's maximum. -/
def expH (s : FVec Ideal S16x256x256 .f32) : FVec Ideal S16x256x256 .f32 :=
  exp (subf s (broadcastTo S16x256x256 (shapeCast S16x256x1
    (multiReduction .maximumf [2] S16x256 s 0xFF800000#32 reduces_S16x256x256_S16x256 (.inl rfl) rfl)
    shapeCasts_S16x256_S16x256x1) broadcasts_S16x256x1_S16x256x256))

theorem expH_apply (s : FVec Ideal S16x256x256 .f32) (a : Fin 16) (j k : Fin 256) :
    expH s (ix3 a j k) = pexp (fun k' => s (ix3 a j k')) k := by
  unfold expH
  show Ideal.exp (s (ix3 a j k) - broadcastTo S16x256x256 _ _ (ix3 a j k)) = _
  rw [spread256_apply, col1_apply]
  unfold pexp rowmax cninf
  refine congrArg (fun m => Ideal.exp (s (ix3 a j k) - m)) ?_
  refine (Ideal.multiReduction_maximumf_single s 0xFF800000#32 _ _ _ (ix2 a j)).trans ?_
  exact congrArg (fun f => Finset.fold max _ f Finset.univ) (funext fun k' => congrArg s (lift_col _ a j k'))

/-- The row sums of the exponentials, kept as a column of width one. -/
def sumH (p : FVec Ideal S16x256x256 .f32) : FVec Ideal S16x256x1 .f32 :=
  shapeCast S16x256x1 (multiReduction .add [2] S16x256 p 0x00000000#32 reduces_S16x256x256_S16x256 (.inl rfl) rfl)
    shapeCasts_S16x256_S16x256x1

theorem sumH_apply (p : FVec Ideal S16x256x256 .f32) (a : Fin 16) (j : Fin 256) (u : Fin 1) :
    sumH p (ix3 a j u) = ∑ k : Fin 256, p (ix3 a j k) := by
  unfold sumH
  rw [col1_apply]
  exact (Ideal.multiReduction_add_single p 0x00000000#32 _ _ _ (ix2 a j)).trans
    (Finset.sum_congr rfl fun k _ => congrArg p (lift_col _ a j k))

/-- The gated average: the weights (exponentials over their row sum) against the values, times the gate, as 4096 rows. -/
def gatedH (p : FVec Ideal S16x256x256 .f32) (l : FVec Ideal S16x256x1 .f32) (v : FVec Ideal S16x256x32 .bf16)
    (g : FVec Ideal S16x256x32 .f32) : FVec Ideal S4096x32 .bf16 :=
  truncf .bf16 (shapeCast S4096x32 (mulf (matmul dot_S16x256x256_S16x256x32_S16x256x32_2_1_1_2_0_0 none
    (truncf .bf16 (divf p (broadcastTo S16x256x256 l broadcasts_S16x256x1_S16x256x256)) bitsLt_bf16_f32) v
    (constant S16x256x32 .f32 0x00000000#32)) g) shapeCasts_S16x256x32_S4096x32) bitsLt_bf16_f32

theorem gatedH_apply (p : FVec Ideal S16x256x256 .f32) (l : FVec Ideal S16x256x1 .f32) (v : FVec Ideal S16x256x32 .bf16)
    (g : FVec Ideal S16x256x32 .f32) (a : Fin 16) (j : Fin 256) (e : Fin 32) :
    gatedH p l v g (ix2 (rowIdx a j) e)
      = (∑ k : Fin 256, Ideal.div (p (ix3 a j k)) (l (ix3 a j (0 : Fin 1))) * v (ix3 a k e)) * g (ix3 a j e) := by
  unfold gatedH
  rw [truncf_apply, rows32_apply, mulf_apply, av_dot]
  refine congrArg (· * g (ix3 a j e)) (Finset.sum_congr rfl fun k _ => ?_)
  rw [truncf_apply, divf_apply, spread256_apply]

/-- The head's share added to the running result. -/
def accH (acc : FVec Ideal S4096x128 .f32) (gt : FVec Ideal S4096x32 .bf16) (wo : FVec Ideal S128x32 .bf16) :
    FVec Ideal S4096x128 .f32 :=
  addf acc (matmul dot_S4096x32_S128x32_S4096x128_1_1_0_0_n_n none gt wo (constant S4096x128 .f32 0x00000000#32))

theorem accH_apply (acc : FVec Ideal S4096x128 .f32) (gt : FVec Ideal S4096x32 .bf16) (wo : FVec Ideal S128x32 .bf16)
    (p : Fin 4096) (c : Fin 128) :
    accH acc gt wo (ix2 p c) = acc (ix2 p c) + ∑ e : Fin 32, gt (ix2 p e) * wo (ix2 c e) := by
  unfold accH
  rw [addf_apply, out_dot]

end Cert.KernelIdeal.AttnValue

end
-- ==== Proof.AttnNorm.lean ====
/-
  The normalised rows of one block of the attention region.  The block holds 16 grid rows of 256 columns of 128 channels;
  the body subtracts each row's mean, scales by the reciprocal root of the variance plus a small constant, applies the
  per-channel affine map, and lays the 16 × 256 rows out as 4096 rows.  Read at row 256 a + j and channel d this is the
  normalised row `ln` of the 128 channels at (a, j).
-/
import proofs.«127889_j66589172957486_2_alg».proof.Proof.Gen.KernelIdeal.Frame
import proofs.«127889_j66589172957486_2_alg».proof.Proof.TriAtt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Idealize.ShloMosaic Idealize.ShloMosaic.ValueIdx Cert.KernelIdeal Cert.KernelIdeal.Facts₀ Cert.TriAtt

variable {α : Type}

/-- The reciprocal square root, the exponential and the logistic of an array act entry by entry. -/
theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl
theorem logistic_apply {s : Shape} {φ : FTy} (x : FVec Ideal s φ) (i : s.Idx) : logistic x i = Ideal.logistic (x i) := rfl

/-- Dropping the block's leading unit axis. -/
theorem drop_unit_apply (x : S1x16x256x128.Idx → α) (h : S1x16x256x128.ShapeCasts S16x256x128) (a : Fin 16) (j : Fin 256)
    (d : Fin 128) : shapeCast S16x256x128 x h (ix3 a j d) = x (ix4 (0 : Fin 1) a j d) :=
  shapeCast_apply x _ (ix3 a j d) (ix4 (0 : Fin 1) a j d) (by
    rw [Shape.rowMajor_val_four, Shape.rowMajor_val_three]
    show ((0 * 16 + a.val) * 256 + j.val) * 128 + d.val = (a.val * 256 + j.val) * 128 + d.val
    omega)

/-- A per-row number kept as a column of width one. -/
theorem keep_col_apply (x : S16x256.Idx → α) (h : S16x256.ShapeCasts S16x256x1) (a : Fin 16) (j : Fin 256) (u : Fin 1) :
    shapeCast S16x256x1 x h (ix3 a j u) = x (ix2 a j) :=
  shapeCast_apply x _ (ix3 a j u) (ix2 a j) (by
    rw [Shape.rowMajor_val_two, Shape.rowMajor_val_three]
    show a.val * 256 + j.val = (a.val * 256 + j.val) * 1 + u.val
    have := u.isLt; omega)

/-- That column spread over the 128 channels. -/
theorem spread_col_apply (x : S16x256x1.Idx → α) (h : S16x256x1.Broadcasts S16x256x128) (a : Fin 16) (j : Fin 256)
    (d : Fin 128) : broadcastTo S16x256x128 x h (ix3 a j d) = x (ix3 a j (0 : Fin 1)) :=
  broadcastTo_apply x _ (ix3 a j d) (ix3 a j (0 : Fin 1)) (fun ax => by
    match ax with
    | ⟨0, _⟩ => rfl
    | ⟨1, _⟩ => rfl
    | ⟨2, _⟩ => rfl)

/-- A per-channel vector as a [1, 1, 128] array. -/
theorem chan_apply (x : S128.Idx → α) (h : S128.ShapeCasts S1x1x128) (u v : Fin 1) (d : Fin 128) :
    shapeCast S1x1x128 x h (ix3 u v d) = x (ix1 d) :=
  shapeCast_apply x _ (ix3 u v d) (ix1 d) (by
    rw [Shape.rowMajor_val_one, Shape.rowMajor_val_three]
    show d.val = (u.val * 1 + v.val) * 128 + d.val
    have := u.isLt; have := v.isLt; omega)

/-- ... spread over the 16 × 256 rows. -/
theorem spread_chan_apply (x : S1x1x128.Idx → α) (h : S1x1x128.Broadcasts S16x256x128) (a : Fin 16) (j : Fin 256)
    (d : Fin 128) : broadcastTo S16x256x128 x h (ix3 a j d) = x (ix3 (0 : Fin 1) (0 : Fin 1) d) :=
  broadcastTo_apply x _ (ix3 a j d) (ix3 (0 : Fin 1) (0 : Fin 1) d) (fun ax => by
    match ax with
    | ⟨0, _⟩ => rfl
    | ⟨1, _⟩ => rfl
    | ⟨2, _⟩ => rfl)

/-- The 16 × 256 rows laid out as 4096 rows: row 256 a + j. -/
theorem flat_rows_apply (x : S16x256x128.Idx → α) (h : S16x256x128.ShapeCasts S4096x128) (a : Fin 16) (j : Fin 256)
    (d : Fin 128) (p : Fin 4096) (hp : p.val = a.val * 256 + j.val) :
    shapeCast S4096x128 x h (ix2 p d) = x (ix3 a j d) :=
  shapeCast_apply x _ (ix2 p d) (ix3 a j d) (by
    rw [Shape.rowMajor_val_two, Shape.rowMajor_val_three]
    show (a.val * 256 + j.val) * 128 + d.val = p.val * 128 + d.val
    rw [hp])

/-- The index a sum over the channels runs through. -/
theorem lift_chan (hr : S16x256x128.Reduces [2] S16x256) (a : Fin 16) (j : Fin 256) (d : Fin 128) :
    hr.lift (ix2 a j) d = ix3 a j d :=
  funext fun ax => Fin.ext (by
    match ax with
    | ⟨0, _⟩ => rfl
    | ⟨1, _⟩ => rfl
    | ⟨2, _⟩ => rfl)

/-- The sum over the 128 channels of a [16, 256, 128] array. -/
def chanSum (x : FVec Ideal S16x256x128 .f32) : FVec Ideal S16x256 .f32 :=
  multiReduction .add [2] S16x256 x 0x00000000#32 reduces_S16x256x128_S16x256 (.inl rfl) rfl

theorem chanSum_apply (x : FVec Ideal S16x256x128 .f32) (a : Fin 16) (j : Fin 256) :
    chanSum x (ix2 a j) = ∑ d : Fin 128, x (ix3 a j d) :=
  (Ideal.multiReduction_add_single x 0x00000000#32 _ _ _ (ix2 a j)).trans
    (Finset.sum_congr rfl fun d _ => congrArg x (lift_chan _ a j d))

/-- The normalised rows of a block: mean, variance, reciprocal root, affine map, then the 16 × 256 rows as 4096 rows. -/
def normRows (v0 : Vec Ideal S1x16x256x128 .f32) (v20 v24 : Vec Ideal S128 .f32) : FVec Ideal S4096x128 .bf16 :=
  have v1 : FVec Ideal S16x256x128 .f32 := shapeCast S16x256x128 v0 shapeCasts_S1x16x256x128_S16x256x128
  have v5 : FVec Ideal S16x256x1 .f32 := divf (shapeCast S16x256x1 (chanSum v1) shapeCasts_S16x256_S16x256x1)
    (broadcast S16x256x1 (Scalar.ofBits .f32 0x43000000#32))
  have v7 : FVec Ideal S16x256x128 .f32 := subf v1 (broadcastTo S16x256x128 v5 broadcasts_S16x256x1_S16x256x128)
  have v12 : FVec Ideal S16x256x1 .f32 := divf (shapeCast S16x256x1 (chanSum (mulf v7 v7)) shapeCasts_S16x256_S16x256x1)
    (broadcast S16x256x1 (Scalar.ofBits .f32 0x43000000#32))
  have v17 : FVec Ideal S16x256x1 .f32 := rsqrt (addf v12 (broadcast S16x256x1 (Scalar.ofBits .f32 0x3727C5AC#32)))
  have v19 : FVec Ideal S16x256x128 .f32 := mulf v7 (broadcastTo S16x256x128 v17 broadcasts_S16x256x1_S16x256x128)
  have v23 : FVec Ideal S16x256x128 .f32 := mulf v19
    (broadcastTo S16x256x128 (shapeCast S1x1x128 v20 shapeCasts_S128_S1x1x128) broadcasts_S1x1x128_S16x256x128)
  have v27 : FVec Ideal S16x256x128 .f32 := addf v23
    (broadcastTo S16x256x128 (shapeCast S1x1x128 v24 shapeCasts_S128_S1x1x128) broadcasts_S1x1x128_S16x256x128)
  truncf .bf16 (shapeCast S4096x128 v27 shapeCasts_S16x256x128_S4096x128) bitsLt_bf16_f32

/-- The body's own term for the normalised rows is this function. -/
theorem pay2_eq (v0 : Vec Ideal S1x16x256x128 .f32) (v20 v24 : Vec Ideal S128 .f32) :
    Gen.k1_pay2 (F := Ideal) v0 v20 v24 = normRows v0 v20 v24 := rfl

/-- The normalised rows of the block, at row 256 a + j and channel d. -/
theorem normRows_apply (v0 : Vec Ideal S1x16x256x128 .f32) (v20 v24 : Vec Ideal S128 .f32) (a : Fin 16) (j : Fin 256)
    (d : Fin 128) (p : Fin 4096) (hp : p.val = a.val * 256 + j.val) :
    normRows v0 v20 v24 (ix2 p d) = ln (V1 v20) (V1 v24) (fun d' => v0 (ix4 (0 : Fin 1) a j d')) d := by
  unfold normRows
  rw [truncf_apply, flat_rows_apply _ _ a j d p hp]
  simp only [addf_apply, mulf_apply, subf_apply, divf_apply, broadcast_apply, spread_chan_apply, chan_apply,
    spread_col_apply, keep_col_apply, chanSum_apply, drop_unit_apply, rsqrt_apply]
  simp only [ln, mean, var, c128, ceps, V1]
  rfl

end Cert.KernelIdeal.AttnValue

end
-- ==== Proof.AttnBlock.lean ====
/-
  One block of the attention region: 16 grid rows, all 256 columns, 128 channels, computed from the block of the input
  and the whole bias array.  The body's text is cut into pieces by position; each piece is one of the per-head array
  functions or a composition of them, and the whole is: the normalised rows, then head after head the share
  (weights against values, gated, against the head's slice of the output weights) added onto a zero array, then the
  4096 rows put back on the [16, 256, 128] grid.  One head's share at (row a of the block, column j, channel c) is the
  row-level `headOutR` of grid row a; four shares onto zero are the row-level result `outR` (`outR_eq_heads`).
-/
import proofs.«127889_j66589172957486_2_alg».proof.Proof.Gen.KernelIdeal.Frame
import proofs.«127889_j66589172957486_2_alg».proof.Proof.TriAtt
import proofs.«127889_j66589172957486_2_alg».proof.Proof.AttnOps
import proofs.«127889_j66589172957486_2_alg».proof.Proof.AttnNorm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Idealize.ShloMosaic Idealize.ShloMosaic.ValueIdx Cert.KernelIdeal Cert.KernelIdeal.Facts₀ Cert.TriAtt

/-! ## The pieces of the body's text are the per-head functions -/

section pieces
variable (hn : FVec Ideal S4096x128 .bf16)

/-- Head 0 entire, onto the zero array. -/
theorem pay8_eq (acc : FVec Ideal S4096x128 .f32) (wq wk wv wg : FVec Ideal S32x128 .bf16) (wo : Vec Ideal S128x32 .f32)
    (bias : Vec Ideal S1x256x256 .f32) :
    Gen.k1_pay8 (F := Ideal) hn acc wq wk wv wg wo bias
      = accH acc (gatedH (expH (scoreH (projH hn wq) (projH hn wk) bias)) (sumH (expH (scoreH (projH hn wq) (projH hn wk) bias)))
          (projH hn wv) (gateH hn wg)) (truncf .bf16 wo bitsLt_bf16_f32) := rfl

/-- Head 1's gated average. -/
theorem pay11_eq (wq : FVec Ideal S32x128 .bf16) (wk wv wg : Vec Ideal S32x128 .f32) (bias : Vec Ideal S1x256x256 .f32) :
    Gen.k1_pay11 (F := Ideal) hn wq wk wv wg bias
      = gatedH (expH (scoreH (projH hn wq) (projH hn (truncf .bf16 wk bitsLt_bf16_f32)) bias))
          (sumH (expH (scoreH (projH hn wq) (projH hn (truncf .bf16 wk bitsLt_bf16_f32)) bias)))
          (projH hn (truncf .bf16 wv bitsLt_bf16_f32)) (gateH hn (truncf .bf16 wg bitsLt_bf16_f32)) := rfl

/-- Head 1's share added. -/
theorem pay12_eq (acc : FVec Ideal S4096x128 .f32) (wo : FVec Ideal S128x32 .bf16) (gt : FVec Ideal S4096x32 .bf16) :
    Gen.k1_pay12 (F := Ideal) acc wo gt (constant S4096x128 .f32 0x00000000#32) = accH acc gt wo := rfl

/-- Head 2's and head 3's values and gates. -/
theorem pay14_eq (wv : Vec Ideal S32x128 .f32) :
    Gen.k1_pay14 (F := Ideal) hn wv = projH hn (truncf .bf16 wv bitsLt_bf16_f32) := rfl
theorem pay15_eq (wg : Vec Ideal S32x128 .f32) :
    Gen.k1_pay15 (F := Ideal) hn wg = gateH hn (truncf .bf16 wg bitsLt_bf16_f32) := rfl
theorem pay20_eq (wv : Vec Ideal S32x128 .f32) :
    Gen.k1_pay20 (F := Ideal) hn wv = projH hn (truncf .bf16 wv bitsLt_bf16_f32) := rfl
theorem pay21_eq (wg : Vec Ideal S32x128 .f32) :
    Gen.k1_pay21 (F := Ideal) hn wg = gateH hn (truncf .bf16 wg bitsLt_bf16_f32) := rfl

/-- Head 2's exponentials and their row sums. -/
theorem pay16_eq (wq wk : Vec Ideal S32x128 .f32) (bias : Vec Ideal S1x256x256 .f32) :
    Gen.k1_pay16 (F := Ideal) hn wq wk bias
      = expH (scoreH (projH hn (truncf .bf16 wq bitsLt_bf16_f32)) (projH hn (truncf .bf16 wk bitsLt_bf16_f32)) bias) := rfl
theorem pay17_eq (wq wk : Vec Ideal S32x128 .f32) (bias : Vec Ideal S1x256x256 .f32) :
    Gen.k1_pay17 (F := Ideal) hn wq wk bias
      = sumH (expH (scoreH (projH hn (truncf .bf16 wq bitsLt_bf16_f32)) (projH hn (truncf .bf16 wk bitsLt_bf16_f32)) bias)) := rfl

/-- Head 2's share added. -/
theorem pay18_eq (acc : FVec Ideal S4096x128 .f32) (wo : FVec Ideal S128x32 .bf16) (v : FVec Ideal S16x256x32 .bf16)
    (g : FVec Ideal S16x256x32 .f32) (p : FVec Ideal S16x256x256 .f32) (l : FVec Ideal S16x256x1 .f32) :
    Gen.k1_pay18 (F := Ideal) acc wo v g p l = accH acc (gatedH p l v g) wo := rfl

/-- Head 3's scores. -/
theorem pay22_eq (wq wk : Vec Ideal S32x128 .f32) (bias : Vec Ideal S1x256x256 .f32) :
    Gen.k1_pay22 (F := Ideal) hn wq wk bias
      = scoreH (projH hn (truncf .bf16 wq bitsLt_bf16_f32)) (projH hn (truncf .bf16 wk bitsLt_bf16_f32)) bias := rfl

/-- Head 3's share added, and the rows put back on the grid. -/
theorem pay1_eq (acc : FVec Ideal S4096x128 .f32) (wo : FVec Ideal S128x32 .bf16) (v : FVec Ideal S16x256x32 .bf16)
    (g : FVec Ideal S16x256x32 .f32) (s : FVec Ideal S16x256x256 .f32) :
    Gen.k1_pay1 (F := Ideal) acc wo v g s
      = shapeCast S16x256x128 (accH acc (gatedH (expH s) (sumH (expH s)) v g) wo) shapeCasts_S4096x128_S16x256x128 := rfl
end pieces

/-! ## One head's share is the row-level `headOutR` -/

section head
variable (hn : FVec Ideal S4096x128 .bf16) (wq wk wv wg : FVec Ideal S32x128 .bf16) (wo : FVec Ideal S128x32 .bf16)
  (bias : Vec Ideal S1x256x256 .f32)
  (R : Fin 256 → Fin 128 → EReal) (T : Fin 4 → Fin 256 → Fin 256 → EReal) (w b : Fin 128 → EReal)
  (qw kw vw gw ow : Fin 128 → Fin 128 → EReal) (a : Fin 16) (h : Fin 4)

/-- A head's share of the result at (row a, column j, channel c), when the block's rows are the normalised rows of grid
    row `R`, the weight slices are the head's rows (columns, for the output weights) and the bias is the head's. -/
theorem head_share
    (hhn : ∀ (j : Fin 256) (d : Fin 128), hn (ix2 (rowIdx a j) d) = hnR R w b j d)
    (hq : ∀ (e : Fin 32) (d : Fin 128), wq (ix2 e d) = qw (he h e) d)
    (hk : ∀ (e : Fin 32) (d : Fin 128), wk (ix2 e d) = kw (he h e) d)
    (hv : ∀ (e : Fin 32) (d : Fin 128), wv (ix2 e d) = vw (he h e) d)
    (hg : ∀ (e : Fin 32) (d : Fin 128), wg (ix2 e d) = gw (he h e) d)
    (ho : ∀ (c : Fin 128) (e : Fin 32), wo (ix2 c e) = ow c (he h e))
    (hb : ∀ j k : Fin 256, bias (ix3 (0 : Fin 1) j k) = T h j k)
    (acc : FVec Ideal S4096x128 .f32) (j : Fin 256) (c : Fin 128) :
    accH acc (gatedH (expH (scoreH (projH hn wq) (projH hn wk) bias)) (sumH (expH (scoreH (projH hn wq) (projH hn wk) bias)))
        (projH hn wv) (gateH hn wg)) wo (ix2 (rowIdx a j) c)
      = acc (ix2 (rowIdx a j) c) + headOutR R T w b qw kw vw gw ow h j c := by
  have hproj : ∀ (ws : FVec Ideal S32x128 .bf16) (W : Fin 128 → Fin 128 → EReal)
      (_ : ∀ (e : Fin 32) (d : Fin 128), ws (ix2 e d) = W (he h e) d) (j' : Fin 256) (e : Fin 32),
      projH hn ws (ix3 a j' e) = linR R w b W j' (he h e) := by
    intro ws W hW j' e
    rw [projH_apply]
    unfold linR
    exact Finset.sum_congr rfl fun d _ => by rw [hhn, hW]
  have hscore : ∀ j' k : Fin 256,
      scoreH (projH hn wq) (projH hn wk) bias (ix3 a j' k) = scoreR R T w b qw kw h j' k := by
    intro j' k
    rw [scoreH_apply, hb]
    unfold scoreR
    refine congrArg (fun s => s * cscale + T h j' k) (Finset.sum_congr rfl fun e _ => ?_)
    rw [hproj wq qw hq, hproj wk kw hk]
  have hS : (fun k' => scoreH (projH hn wq) (projH hn wk) bias (ix3 a j k')) = scoreR R T w b qw kw h j :=
    funext (hscore j)
  rw [accH_apply]
  unfold headOutR
  refine congrArg (acc (ix2 (rowIdx a j) c) + ·) (Finset.sum_congr rfl fun e _ => ?_)
  rw [gatedH_apply, ho, gateH_apply]
  have hgate : Ideal.logistic (∑ d : Fin 128, hn (ix2 (rowIdx a j) d) * wg (ix2 e d)) = gateR R w b gw j (he h e) := by
    unfold gateR linR
    exact congrArg Ideal.logistic (Finset.sum_congr rfl fun d _ => by rw [hhn, hg])
  have hctx : (∑ k : Fin 256, Ideal.div (expH (scoreH (projH hn wq) (projH hn wk) bias) (ix3 a j k))
        (sumH (expH (scoreH (projH hn wq) (projH hn wk) bias)) (ix3 a j (0 : Fin 1))) * projH hn wv (ix3 a k e))
      = ctxR R T w b qw kw vw h j e := by
    unfold ctxR
    refine Finset.sum_congr rfl fun k _ => ?_
    rw [hproj wv vw hv, sumH_apply]
    simp only [expH_apply, hS]
    rfl
  rw [hgate, hctx]
end head

/-! ## The block -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz1 : (![0] : Fin 1 → Nat) = fun _ => 0 := funext fun a => by fin_cases a <;> rfl

/-- A head's 32 rows of a [128, 128] weight array, read through the rectangle at row offset `o`. -/
theorem ld_rows (x : Vec Ideal S128x128 .f32) (o : Nat) (inb) (hh : Fin 4) (ho : o = hh.val * 32) (e : Fin 32) (d : Fin 128) :
    View.ld x (Rect.unit (s := S128x128) ![o, 0] S32x128.size inb) (ix2 e d) = M2 x (he hh e) d := by
  subst ho
  show x _ = x _
  refine congrArg x (funext fun ax => Fin.ext ?_)
  match ax with
  | ⟨0, _⟩ => show hh.val * 32 + 1 * e.val = hh.val * 32 + e.val; omega
  | ⟨1, _⟩ => show 0 + 1 * d.val = d.val; omega

/-- A head's 32 columns of the [128, 128] output weights, read through the rectangle at column offset `o`. -/
theorem ld_cols (x : Vec Ideal S128x128 .f32) (o : Nat) (inb) (hh : Fin 4) (ho : o = hh.val * 32) (c : Fin 128) (e : Fin 32) :
    View.ld x (Rect.unit (s := S128x128) ![0, o] S128x32.size inb) (ix2 c e) = M2 x c (he hh e) := by
  subst ho
  show x _ = x _
  refine congrArg x (funext fun ax => Fin.ext ?_)
  match ax with
  | ⟨0, _⟩ => show 0 + 1 * c.val = c.val; omega
  | ⟨1, _⟩ => show hh.val * 32 + 1 * e.val = hh.val * 32 + e.val; omega

/-- A head's [256, 256] bias, read through the rectangle at head offset `o` of the [4, 256, 256] array. -/
theorem ld_bias (x : Vec Ideal S4x256x256 .f32) (o : Nat) (inb) (hh : Fin 4) (ho : o = hh.val) (j k : Fin 256) :
    View.ld x (Rect.unit (s := S4x256x256) ![o, 0, 0] S1x256x256.size inb) (ix3 (0 : Fin 1) j k) = x (ix3 hh j k) := by
  subst ho
  show x _ = x _
  refine congrArg x (funext fun ax => Fin.ext ?_)
  match ax with
  | ⟨0, _⟩ => show hh.val + 1 * 0 = hh.val; omega
  | ⟨1, _⟩ => show 0 + 1 * j.val = j.val; omega
  | ⟨2, _⟩ => show 0 + 1 * k.val = k.val; omega

/-- The output buffer after the body, at (a, j, c): grid row `a` of the block attended over its columns under the bias
    array `x8`, by the weights `x3` (query), `x4` (key), `x5` (value), `x6` (gate), `x7` (output). -/
theorem attn_block (x0 : Vec Ideal S1x16x256x128 .f32) (x1 x2 : Vec Ideal S128 .f32)
    (x3 x4 x5 x6 x7 : Vec Ideal S128x128 .f32) (x8 : Vec Ideal S4x256x256 .f32)
    (a : Fin 16) (j : Fin 256) (c : Fin 128) :
    Gen.out1_9 (F := Ideal) x0 x1 x2 x3 x4 x5 x6 x7 x8 (ix3 a j c)
      = outR (fun j' d => x0 (ix4 (0 : Fin 1) a j' d)) (fun h j' k => x8 (ix3 h j' k)) (V1 x1) (V1 x2)
          (M2 x3) (M2 x4) (M2 x5) (M2 x6) (M2 x7) j c := by
  unfold Gen.out1_9
  rw [View.canon_unit_zero hz3]
  simp only [View.ld_unit_zero (S := S1x16x256x128) hz4, View.ld_unit_zero (S := S128) hz1]
  rw [pay2_eq, pay1_eq, pay18_eq, pay12_eq, pay8_eq, pay11_eq, pay14_eq, pay15_eq, pay16_eq, pay17_eq, pay20_eq, pay21_eq,
    pay22_eq]
  rw [grid128_apply, outR_eq_heads]
  have hhn : ∀ (j' : Fin 256) (d : Fin 128), normRows x0 x1 x2 (ix2 (rowIdx a j') d)
      = hnR (fun j' d => x0 (ix4 (0 : Fin 1) a j' d)) (V1 x1) (V1 x2) j' d :=
    fun j' d => normRows_apply x0 x1 x2 a j' d (rowIdx a j') rfl
  refine (head_share (R := fun j' d => x0 (ix4 (0 : Fin 1) a j' d)) (T := fun h j' k => x8 (ix3 h j' k)) (w := V1 x1) (b := V1 x2)
    (qw := M2 x3) (kw := M2 x4) (vw := M2 x5) (gw := M2 x6) (ow := M2 x7) (a := a) (h := 3) (hhn := hhn)
    (hq := fun e d => ld_rows x3 96 _ 3 rfl e d) (hk := fun e d => ld_rows x4 96 _ 3 rfl e d)
    (hv := fun e d => ld_rows x5 96 _ 3 rfl e d) (hg := fun e d => ld_rows x6 96 _ 3 rfl e d)
    (ho := fun c e => ld_cols x7 96 _ 3 rfl c e) (acc := _) (hb := fun j k => ld_bias x8 3 _ 3 rfl j k) (j := j) (c := c)).trans
    (congrArg₂ (· + ·) ?_ rfl)
  refine (head_share (R := fun j' d => x0 (ix4 (0 : Fin 1) a j' d)) (T := fun h j' k => x8 (ix3 h j' k)) (w := V1 x1) (b := V1 x2)
    (qw := M2 x3) (kw := M2 x4) (vw := M2 x5) (gw := M2 x6) (ow := M2 x7) (a := a) (h := 2) (hhn := hhn)
    (hq := fun e d => ld_rows x3 64 _ 2 rfl e d) (hk := fun e d => ld_rows x4 64 _ 2 rfl e d)
    (hv := fun e d => ld_rows x5 64 _ 2 rfl e d) (hg := fun e d => ld_rows x6 64 _ 2 rfl e d)
    (ho := fun c e => ld_cols x7 64 _ 2 rfl c e) (acc := _) (hb := fun j k => ld_bias x8 2 _ 2 rfl j k) (j := j) (c := c)).trans
    (congrArg₂ (· + ·) ?_ rfl)
  refine (head_share (R := fun j' d => x0 (ix4 (0 : Fin 1) a j' d)) (T := fun h j' k => x8 (ix3 h j' k)) (w := V1 x1) (b := V1 x2)
    (qw := M2 x3) (kw := M2 x4) (vw := M2 x5) (gw := M2 x6) (ow := M2 x7) (a := a) (h := 1) (hhn := hhn)
    (hq := fun e d => ld_rows x3 32 _ 1 rfl e d) (hk := fun e d => ld_rows x4 32 _ 1 rfl e d)
    (hv := fun e d => ld_rows x5 32 _ 1 rfl e d) (hg := fun e d => ld_rows x6 32 _ 1 rfl e d)
    (ho := fun c e => ld_cols x7 32 _ 1 rfl c e) (acc := _) (hb := fun j k => ld_bias x8 1 _ 1 rfl j k) (j := j) (c := c)).trans
    (congrArg₂ (· + ·) ?_ rfl)
  refine (head_share (R := fun j' d => x0 (ix4 (0 : Fin 1) a j' d)) (T := fun h j' k => x8 (ix3 h j' k)) (w := V1 x1) (b := V1 x2)
    (qw := M2 x3) (kw := M2 x4) (vw := M2 x5) (gw := M2 x6) (ow := M2 x7) (a := a) (h := 0) (hhn := hhn)
    (hq := fun e d => ld_rows x3 0 _ 0 rfl e d) (hk := fun e d => ld_rows x4 0 _ 0 rfl e d)
    (hv := fun e d => ld_rows x5 0 _ 0 rfl e d) (hg := fun e d => ld_rows x6 0 _ 0 rfl e d)
    (ho := fun c e => ld_cols x7 0 _ 0 rfl c e) (acc := _) (hb := fun j k => ld_bias x8 0 _ 0 rfl j k) (j := j) (c := c)).trans
    (congrArg₂ (· + ·) ?_ rfl)
  show Ideal.ofBits .f32 0x00000000#32 = 0
  exact Ideal.ofBits_zero_f32

end Cert.KernelIdeal.AttnValue

end
-- ==== Proof.AttnArray.lean ====
/-
  From blocks to the array.  The attention region runs over sixteen points; point t reads grid rows 16 t … 16 t + 15 of
  the input (all columns, all channels), the whole of every weight array and of the bias array, and writes back grid rows
  16 t … 16 t + 15 of the output.  A block's coordinate on an axis is (block index) × (block extent) + (coordinate inside
  the block), so with the index maps decided over the sixteen points each input block read at an index is the array read
  at the corresponding global index, and the whole windows are their arrays.  One block of the output is, row by row, the
  row-level function of the specification; grid row r lies in the block of point r / 16, so the sixteen blocks cover the
  output array and it ends holding the specification's array.
-/
import proofs.«127889_j66589172957486_2_alg».proof.Proof.AttnBlock

set_option maxRecDepth 16384

noncomputable section

namespace Cert.KernelIdeal.AttnValue

open Idealize.ShloMosaic Idealize.ShloMosaic.TcCoe Idealize.ShloMosaic.ValueIdx Cert.KernelIdeal Cert.TriAtt
open Idealize.ShloMosaic.Pipeline (Dat)

/-- The printed index maps, decided once over the sixteen grid points: the input block and the output block move with
    the point along the grid-row axis only; every other window is its whole array. -/
theorem idx_facts : ∀ t : Fin cfg1.N,
    win1_0.index t (0 : Fin 4) = 0 ∧ win1_0.index t (1 : Fin 4) = t.val ∧ win1_0.index t (2 : Fin 4) = 0 ∧ win1_0.index t (3 : Fin 4) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 3) = 0 ∧ win1_8.index t (1 : Fin 3) = 0 ∧ win1_8.index t (2 : Fin 3) = 0
    ∧ win1_9.index t (0 : Fin 3) = t.val ∧ win1_9.index t (1 : Fin 3) = 0 ∧ win1_9.index t (2 : Fin 3) = 0 :=
  (by decide +kernel : ∀ t : Fin grid1.N, _)

section reads
variable (V : (c : Dev nD) → (b : Ref sig .tc) → Buf (Elt Ideal) ((c : Thread nD τ).loc b)) (c : Dev nD)

/-- The input block of point `t` at (row a, column j, channel d) is the input array at grid row 16 t + a. -/
theorem blk0_apply (t : Fin cfg1.N) (a : Fin 16) (j : Fin 256) (d : Fin 128) (i : Fin 256) (hi : i.val = t.val * 16 + a.val) :
    (Gen.iblk1 (F := Ideal) V c 0 t : Vec Ideal S1x16x256x128 .f32) (ix4 (0 : Fin 1) a j d)
      = (V c main_arg0 : S1x256x256x128.Idx → EReal) (ix4 (0 : Fin 1) i j d) := by
  obtain ⟨e0, e1, e2, e3, -⟩ := idx_facts t
  unfold Gen.iblk1
  rw [View.read_apply]
  show V c main_arg0 _ = V c main_arg0 _
  congr 1
  funext k; apply Fin.ext
  match k with
  | ⟨0, _⟩ => show win1_0.index t (0 : Fin 4) * 1 + 1 * 0 = 0; omega
  | ⟨1, _⟩ => show win1_0.index t (1 : Fin 4) * 16 + 1 * a.val = i.val; omega
  | ⟨2, _⟩ => show win1_0.index t (2 : Fin 4) * 256 + 1 * j.val = j.val; omega
  | ⟨3, _⟩ => show win1_0.index t (3 : Fin 4) * 128 + 1 * d.val = d.val; omega

theorem blk1_eq (t : Fin cfg1.N) : (Gen.iblk1 (F := Ideal) V c 1 t : Vec Ideal S128 .f32) = V c main_arg1 := by
  obtain ⟨-, -, -, -, e4, -⟩ := idx_facts t
  funext x
  unfold Gen.iblk1
  rw [View.read_apply]
  show V c main_arg1 _ = V c main_arg1 _
  congr 1
  funext k; apply Fin.ext
  match k with
  | ⟨0, _⟩ => show win1_1.index t (0 : Fin 1) * 128 + 1 * (x 0).val = (x 0).val; omega

theorem blk2_eq (t : Fin cfg1.N) : (Gen.iblk1 (F := Ideal) V c 2 t : Vec Ideal S128 .f32) = V c main_arg2 := by
  obtain ⟨-, -, -, -, -, e5, -⟩ := idx_facts t
  funext x
  unfold Gen.iblk1
  rw [View.read_apply]
  show V c main_arg2 _ = V c main_arg2 _
  congr 1
  funext k; apply Fin.ext
  match k with
  | ⟨0, _⟩ => show win1_2.index t (0 : Fin 1) * 128 + 1 * (x 0).val = (x 0).val; omega

theorem blk3_eq (t : Fin cfg1.N) : (Gen.iblk1 (F := Ideal) V c 3 t : Vec Ideal S128x128 .f32) = V c main_arg4 := by
  obtain ⟨-, -, -, -, -, -, e6, e7, -⟩ := idx_facts t
  funext x
  unfold Gen.iblk1
  rw [View.read_apply]
  show V c main_arg4 _ = V c main_arg4 _
  congr 1
  funext k; apply Fin.ext
  match k with
  | ⟨0, _⟩ => show win1_3.index t (0 : Fin 2) * 128 + 1 * (x 0).val = (x 0).val; omega
  | ⟨1, _⟩ => show win1_3.index t (1 : Fin 2) * 128 + 1 * (x 1).val = (x 1).val; omega

theorem blk4_eq (t : Fin cfg1.N) : (Gen.iblk1 (F := Ideal) V c 4 t : Vec Ideal S128x128 .f32) = V c main_arg5 := by
  obtain ⟨-, -, -, -, -, -, -, -, e8, e9, -⟩ := idx_facts t
  funext x
  unfold Gen.iblk1
  rw [View.read_apply]
  show V c main_arg5 _ = V c main_arg5 _
  congr 1
  funext k; apply Fin.ext
  match k with
  | ⟨0, _⟩ => show win1_4.index t (0 : Fin 2) * 128 + 1 * (x 0).val = (x 0).val; omega
  | ⟨1, _⟩ => show win1_4.index t (1 : Fin 2) * 128 + 1 * (x 1).val = (x 1).val; omega

theorem blk5_eq (t : Fin cfg1.N) : (Gen.iblk1 (F := Ideal) V c 5 t : Vec Ideal S128x128 .f32) = V c main_arg6 := by
  obtain ⟨-, -, -, -, -, -, -, -, -, -, e10, e11, -⟩ := idx_facts t
  funext x
  unfold Gen.iblk1
  rw [View.read_apply]
  show V c main_arg6 _ = V c main_arg6 _
  congr 1
  funext k; apply Fin.ext
  match k with
  | ⟨0, _⟩ => show win1_5.index t (0 : Fin 2) * 128 + 1 * (x 0).val = (x 0).val; omega
  | ⟨1, _⟩ => show win1_5.index t (1 : Fin 2) * 128 + 1 * (x 1).val = (x 1).val; omega

theorem blk6_eq (t : Fin cfg1.N) : (Gen.iblk1 (F := Ideal) V c 6 t : Vec Ideal S128x128 .f32) = V c main_arg7 := by
  obtain ⟨-, -, -, -, -, -, -, -, -, -, -, -, e12, e13, -⟩ := idx_facts t
  funext x
  unfold Gen.iblk1
  rw [View.read_apply]
  show V c main_arg7 _ = V c main_arg7 _
  congr 1
  funext k; apply Fin.ext
  match k with
  | ⟨0, _⟩ => show win1_6.index t (0 : Fin 2) * 128 + 1 * (x 0).val = (x 0).val; omega
  | ⟨1, _⟩ => show win1_6.index t (1 : Fin 2) * 128 + 1 * (x 1).val = (x 1).val; omega

theorem blk7_eq (t : Fin cfg1.N) : (Gen.iblk1 (F := Ideal) V c 7 t : Vec Ideal S128x128 .f32) = V c main_arg8 := by
  obtain ⟨-, -, -, -, -, -, -, -, -, -, -, -, -, -, e14, e15, -⟩ := idx_facts t
  funext x
  unfold Gen.iblk1
  rw [View.read_apply]
  show V c main_arg8 _ = V c main_arg8 _
  congr 1
  funext k; apply Fin.ext
  match k with
  | ⟨0, _⟩ => show win1_7.index t (0 : Fin 2) * 128 + 1 * (x 0).val = (x 0).val; omega
  | ⟨1, _⟩ => show win1_7.index t (1 : Fin 2) * 128 + 1 * (x 1).val = (x 1).val; omega

theorem blk8_eq (t : Fin cfg1.N) : (Gen.iblk1 (F := Ideal) V c 8 t : Vec Ideal S4x256x256 .f32) = V c main_v0 := by
  obtain ⟨-, -, -, -, -, -, -, -, -, -, -, -, -, -, -, -, e16, e17, e18, -⟩ := idx_facts t
  funext x
  unfold Gen.iblk1
  rw [View.read_apply]
  show V c main_v0 _ = V c main_v0 _
  congr 1
  funext k; apply Fin.ext
  match k with
  | ⟨0, _⟩ => show win1_8.index t (0 : Fin 3) * 4 + 1 * (x 0).val = (x 0).val; omega
  | ⟨1, _⟩ => show win1_8.index t (1 : Fin 3) * 256 + 1 * (x 1).val = (x 1).val; omega
  | ⟨2, _⟩ => show win1_8.index t (2 : Fin 3) * 256 + 1 * (x 2).val = (x 2).val; omega

/-- WHAT POINT `t` LEAVES at (row a, column j, channel e) of its output block: the specification at grid row 16 t + a. -/
theorem after_pt (hT : V c main_v0 = triArr (V c main_arg0) (V c main_arg1) (V c main_arg2) (V c main_arg3))
    (t : Fin cfg1.N) (a : Fin 16) (j : Fin 256) (e : Fin 128) (i : Fin 256) (hi : i.val = t.val * 16 + a.val) :
    Gen.out1_9 (F := Ideal) (Gen.iblk1 V c 0 t) (Gen.iblk1 V c 1 t) (Gen.iblk1 V c 2 t) (Gen.iblk1 V c 3 t) (Gen.iblk1 V c 4 t)
        (Gen.iblk1 V c 5 t) (Gen.iblk1 V c 6 t) (Gen.iblk1 V c 7 t) (Gen.iblk1 V c 8 t) (ix3 a j e)
      = out (X4 (V c main_arg0)) (V1 (V c main_arg1)) (V1 (V c main_arg2)) (M4 (V c main_arg3)) (M2 (V c main_arg4))
          (M2 (V c main_arg5)) (M2 (V c main_arg6)) (M2 (V c main_arg7)) (M2 (V c main_arg8)) i j e := by
  rw [attn_block]
  have h0 : (fun (j' : Fin 256) (d : Fin 128) => (Gen.iblk1 (F := Ideal) V c 0 t : Vec Ideal S1x16x256x128 .f32) (ix4 (0 : Fin 1) a j' d))
      = X4 (V c main_arg0) i := funext fun j' => funext fun d => blk0_apply V c t a j' d i hi
  have h8 : (fun (h : Fin 4) (j' k : Fin 256) => (Gen.iblk1 (F := Ideal) V c 8 t : Vec Ideal S4x256x256 .f32) (ix3 h j' k))
      = tri (X4 (V c main_arg0)) (V1 (V c main_arg1)) (V1 (V c main_arg2)) (M4 (V c main_arg3)) := by
    rw [blk8_eq, hT]; rfl
  rw [h0, h8, blk1_eq, blk2_eq, blk3_eq, blk4_eq, blk5_eq, blk6_eq, blk7_eq]
  rfl

end reads

/-- The specification's array read at an index whose coordinates are known. -/
theorem outArr_apply (x0 : S1x256x256x128.Idx → EReal) (x1 x2 : S128.Idx → EReal) (x3 : S4x128.Idx → EReal)
    (x4 x5 x6 x7 x8 : S128x128.Idx → EReal) (y : S256x256x128.Idx) (i j : Fin 256) (e : Fin 128)
    (h0 : (y 0).val = i.val) (h1 : (y 1).val = j.val) (h2 : (y 2).val = e.val) :
    outArr x0 x1 x2 x3 x4 x5 x6 x7 x8 y
      = out (X4 x0) (V1 x1) (V1 x2) (M4 x3) (M2 x4) (M2 x5) (M2 x6) (M2 x7) (M2 x8) i j e := by
  have e0 : (⟨(y 0).val, (y 0).isLt⟩ : Fin 256) = i := Fin.ext h0
  have e1 : (⟨(y 1).val, (y 1).isLt⟩ : Fin 256) = j := Fin.ext h1
  have e2 : (⟨(y 2).val, (y 2).isLt⟩ : Fin 128) = e := Fin.ext h2
  unfold outArr
  rw [e0, e1, e2]

/-- An index of the output array is in point `t`'s block iff each coordinate is in the block's range on its axis. -/
theorem mem_blk9 (t : Fin cfg1.N) (i : S256x256x128.Idx) :
    i ∈ ((cfg1.win 9).blk t).view.set ↔ ∀ a : Fin 3, win1_9.index t a * S16x256x128.size a ≤ (i a).val ∧ (i a).val < win1_9.index t a * S16x256x128.size a + S16x256x128.size a := by
  show i ∈ ((View.whole main_v1).slice (win1_9.rect t)).set ↔ _
  rw [View.set_slice_whole, Rect.mem_set_unit]
  exact Iff.rfl

/-- THE OUTPUT ARRAY after the sixteen points: the specification, index by index.  Point `t` writes back grid rows
    16 t … 16 t + 15, each the specification's (`after_pt`); grid row r is in the block of point r / 16. -/
theorem attn_array (V : (c : Dev nD) → (b : Ref sig .tc) → Buf (Elt Ideal) ((c : Thread nD τ).loc b)) (c : Dev nD)
    (hT : V c main_v0 = triArr (V c main_arg0) (V c main_arg1) (V c main_arg2) (V c main_arg3)) :
    (Gen.dat1 (F := Ideal) V c).arrAt 9 cfg1.N = outArr (V c main_arg0) (V c main_arg1) (V c main_arg2) (V c main_arg3) (V c main_arg4) (V c main_arg5) (V c main_arg6) (V c main_arg7) (V c main_arg8) := by
  refine (Gen.dat1 (F := Ideal) V c).arrAt_eq_of_cover 9 _ (fun t _ => ?_) (fun i => ?_)
  · show (cfg1.win 9).cut (grid1.coords t) ((Gen.dat1 (F := Ideal) V c).after 9 t) = _
    rw [Gen.after1_9]
    obtain ⟨-, -, -, -, -, -, -, -, -, -, -, -, -, -, -, -, -, -, -, e0, e1, e2⟩ := idx_facts t
    funext y
    obtain ⟨a, j, e, rfl⟩ : ∃ (a : Fin 16) (j : Fin 256) (e : Fin 128), y = ix3 a j e := ⟨y 0, y 1, y 2, eq_ix3 y⟩
    have ht : t.val < 16 := Nat.lt_of_lt_of_eq t.isLt Gen.N_1
    refine (after_pt V c hT t a j e ⟨t.val * 16 + a.val, by have := a.isLt; omega⟩ rfl).trans ?_
    refine (outArr_apply (V c main_arg0) (V c main_arg1) (V c main_arg2) (V c main_arg3) (V c main_arg4) (V c main_arg5) (V c main_arg6) (V c main_arg7) (V c main_arg8) (((cfg1.win 9).blk t).view.emb (ix3 a j e)) _ j e ?_ ?_ ?_).symm
    · show win1_9.index t (0 : Fin 3) * 16 + 1 * a.val = t.val * 16 + a.val; omega
    · show win1_9.index t (1 : Fin 3) * 256 + 1 * j.val = j.val; omega
    · show win1_9.index t (2 : Fin 3) * 128 + 1 * e.val = e.val; omega
  · have h0 : (i 0).val < 256 := (i 0).isLt
    have h1 : (i 1).val < 256 := (i 1).isLt
    have h2 : (i 2).val < 128 := (i 2).isLt
    refine ⟨⟨(i 0).val / 16, by show _ < grid1.N; rw [Gen.N_1]; omega⟩, Gen.flush1_9 _, ?_⟩
    obtain ⟨-, -, -, -, -, -, -, -, -, -, -, -, -, -, -, -, -, -, -, e0, e1, e2⟩ := idx_facts ⟨(i 0).val / 16, by show _ < grid1.N; rw [Gen.N_1]; omega⟩
    rw [mem_blk9]
    intro a
    match a with
    | ⟨0, _⟩ => show win1_9.index _ (0 : Fin 3) * 16 ≤ (i 0).val ∧ (i 0).val < win1_9.index _ (0 : Fin 3) * 16 + 16; rw [e0]; show (i 0).val / 16 * 16 ≤ (i 0).val ∧ (i 0).val < (i 0).val / 16 * 16 + 16; omega
    | ⟨1, _⟩ => show win1_9.index _ (1 : Fin 3) * 256 ≤ (i 1).val ∧ (i 1).val < win1_9.index _ (1 : Fin 3) * 256 + 256; rw [e1]; omega
    | ⟨2, _⟩ => show win1_9.index _ (2 : Fin 3) * 128 ≤ (i 2).val ∧ (i 2).val < win1_9.index _ (2 : Fin 3) * 128 + 128; rw [e2]; omega

end Cert.KernelIdeal.AttnValue

end
-- ==== Proof.BiasRows.lean ====
/-
  The bias projection's block arithmetic, entry by entry, on the extended reals.

  A block is 64 grid rows of 256 columns of 128 channels. Each 128-channel row is normalised: its mean is the lane sum
  over 128, its variance the lane sum of the squared deviations over 128, and entry d is
  (deviation at d) × (variance + ε)^(-1/2) × w d + b d. The rows are then laid end to end (row (a, k) becomes flat row
  256 a + k) and multiplied against the 4 × 128 bias weights into a zero accumulator, so entry (h, 256 a + k) of the
  product is the sum over the 128 channels of weight (h, d) times the normalised row (a, k) at d; finally the flat
  axis is split back into (a, k). Every step here is a re-indexing or an entrywise operation, read at explicit
  coordinates; no law of arithmetic is used.
-/
import proofs.«127889_j66589172957486_2_alg».proof.Proof.Gen.KernelIdeal.Frame
import proofs.«127889_j66589172957486_2_alg».proof.Proof.TriAtt
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BiasValue

open Idealize.ShloMosaic Idealize.ShloMosaic.ValueIdx
open Cert.KernelIdeal Cert.KernelIdeal.Facts₀ Cert.TriAtt

/-! ## Layout steps at explicit coordinates -/

/-- Dropping the leading unit axis: entry (a, k, d) of the [64,256,128] view is entry (0, a, k, d). -/
theorem dropUnit_apply (v : Vec Ideal S1x64x256x128 .f32) (h : S1x64x256x128.ShapeCasts S64x256x128)
    (a : Fin 64) (k : Fin 256) (d : Fin 128) :
    shapeCast S64x256x128 v h (ix3 a k d) = v (ix4 (0 : Fin 1) a k d) :=
  shapeCast_apply v h (ix3 a k d) (ix4 (0 : Fin 1) a k d) (by
    rw [Shape.rowMajor_val_four, Shape.rowMajor_val_three]
    show ((0 * 64 + a.val) * 256 + k.val) * 128 + d.val = (a.val * 256 + k.val) * 128 + d.val
    omega)

/-- Flattening the two grid axes: row a * 256 + k of the [16384,128] view is the row at (a, k). -/
theorem flatRows_apply (v : FVec Ideal S64x256x128 .f32) (h : S64x256x128.ShapeCasts S16384x128)
    (a : Fin 64) (k : Fin 256) (d : Fin 128) (n : Fin 16384) (hn : n.val = a.val * 256 + k.val) :
    shapeCast S16384x128 v h (ix2 n d) = v (ix3 a k d) :=
  shapeCast_apply v h (ix2 n d) (ix3 a k d) (by
    rw [Shape.rowMajor_val_two, Shape.rowMajor_val_three]
    show (a.val * 256 + k.val) * 128 + d.val = n.val * 128 + d.val
    rw [hn])

/-- Splitting the flat axis of the product: entry (h, a, k) of the [4,64,256] view is entry (h, a * 256 + k). -/
theorem splitCols_apply (v : FVec Ideal S4x16384 .f32) (h : S4x16384.ShapeCasts S4x64x256)
    (hh : Fin 4) (a : Fin 64) (k : Fin 256) (n : Fin 16384) (hn : n.val = a.val * 256 + k.val) :
    shapeCast S4x64x256 v h (ix3 hh a k) = v (ix2 hh n) :=
  shapeCast_apply v h (ix3 hh a k) (ix2 hh n) (by
    rw [Shape.rowMajor_val_two, Shape.rowMajor_val_three]
    show hh.val * 16384 + n.val = (hh.val * 64 + a.val) * 256 + k.val
    rw [hn]; omega)

/-- A per-row number kept under a trailing unit axis: entry (a, k, 0) of the [64,256,1] view is entry (a, k). -/
theorem keepdim_apply (v : FVec Ideal S64x256 .f32) (h : S64x256.ShapeCasts S64x256x1)
    (a : Fin 64) (k : Fin 256) :
    shapeCast S64x256x1 v h (ix3 a k (0 : Fin 1)) = v (ix2 a k) :=
  shapeCast_apply v h (ix3 a k (0 : Fin 1)) (ix2 a k) (by
    rw [Shape.rowMajor_val_two, Shape.rowMajor_val_three]
    show a.val * 256 + k.val = (a.val * 256 + k.val) * 1 + 0
    omega)

/-- A per-row number spread over the row's 128 channels. -/
theorem spreadRow_apply (v : FVec Ideal S64x256x1 .f32) (h : S64x256x1.Broadcasts S64x256x128)
    (a : Fin 64) (k : Fin 256) (d : Fin 128) :
    broadcastTo S64x256x128 v h (ix3 a k d) = v (ix3 a k (0 : Fin 1)) :=
  broadcastTo_apply v h (ix3 a k d) (ix3 a k (0 : Fin 1)) (fun b => by
    match b with
    | ⟨0, _⟩ => rfl
    | ⟨1, _⟩ => rfl
    | ⟨2, _⟩ => rfl)

/-- A per-channel number (a [128] array viewed as [1,1,128]) spread over every row. -/
theorem spreadChan_apply (v : FVec Ideal S1x1x128 .f32) (h : S1x1x128.Broadcasts S64x256x128)
    (a : Fin 64) (k : Fin 256) (d : Fin 128) :
    broadcastTo S64x256x128 v h (ix3 a k d) = v (ix3 (0 : Fin 1) (0 : Fin 1) d) :=
  broadcastTo_apply v h (ix3 a k d) (ix3 (0 : Fin 1) (0 : Fin 1) d) (fun b => by
    match b with
    | ⟨0, _⟩ => rfl
    | ⟨1, _⟩ => rfl
    | ⟨2, _⟩ => rfl)

theorem chanView_apply (v : Vec Ideal S128 .f32) (h : S128.ShapeCasts S1x1x128) (d : Fin 128) :
    shapeCast S1x1x128 v h (ix3 (0 : Fin 1) (0 : Fin 1) d) = v (ix1 d) :=
  shapeCast_apply v h (ix3 (0 : Fin 1) (0 : Fin 1) d) (ix1 d) (by
    rw [Shape.rowMajor_val_one, Shape.rowMajor_val_three]
    show d.val = (0 * 1 + 0) * 128 + d.val
    omega)

/-- The sum over the channel axis at row (a, k). -/
theorem laneSum_apply (v : FVec Ideal S64x256x128 .f32) (h : S64x256x128.Reduces [2] S64x256)
    (hφ : FKind.Formats .f32) (hacc : (0x00000000#32 : BitVec 32) = FKind.add.neutral .f32 hφ)
    (a : Fin 64) (k : Fin 256) :
    multiReduction (F := Ideal) .add [2] S64x256 v 0x00000000#32 h hφ hacc (ix2 a k) = ∑ d : Fin 128, v (ix3 a k d) := by
  refine (Ideal.multiReduction_add_single v _ h hφ hacc (ix2 a k)).trans ?_
  refine Finset.sum_congr rfl fun d _ => congrArg v (funext fun b => Fin.ext ?_)
  match b with
  | ⟨0, _⟩ => rfl
  | ⟨1, _⟩ => rfl
  | ⟨2, _⟩ => rfl

/-! ## The normalisation of a block of rows, stage by stage -/

/-- The means of the block's rows, kept under a trailing unit axis. -/
def meanB (v1 : FVec Ideal S64x256x128 .f32) : FVec Ideal S64x256x1 .f32 :=
  divf (shapeCast S64x256x1 (multiReduction (F := Ideal) .add [2] S64x256 v1 0x00000000#32 reduces_S64x256x128_S64x256 (.inl rfl) rfl) shapeCasts_S64x256_S64x256x1)
    (broadcast S64x256x1 (Scalar.ofBits (F := Ideal) .f32 0x43000000#32))

/-- The deviations from the row's mean. -/
def devB (v1 : FVec Ideal S64x256x128 .f32) : FVec Ideal S64x256x128 .f32 :=
  subf v1 (broadcastTo S64x256x128 (meanB v1) broadcasts_S64x256x1_S64x256x128)

/-- The variances of the rows. -/
def varB (v1 : FVec Ideal S64x256x128 .f32) : FVec Ideal S64x256x1 .f32 :=
  divf (shapeCast S64x256x1 (multiReduction (F := Ideal) .add [2] S64x256 (mulf (devB v1) (devB v1)) 0x00000000#32 reduces_S64x256x128_S64x256 (.inl rfl) rfl) shapeCasts_S64x256_S64x256x1)
    (broadcast S64x256x1 (Scalar.ofBits (F := Ideal) .f32 0x43000000#32))

/-- The reciprocal roots of (variance + ε). -/
def rstdB (v1 : FVec Ideal S64x256x128 .f32) : FVec Ideal S64x256x1 .f32 :=
  rsqrt (addf (varB v1) (broadcast S64x256x1 (Scalar.ofBits (F := Ideal) .f32 0x3727C5AC#32)))

/-- The normalised block: deviation × reciprocal root × weight + offset, channel by channel. -/
def lnB (v1 : FVec Ideal S64x256x128 .f32) (v20 v24 : Vec Ideal S128 .f32) : FVec Ideal S64x256x128 .f32 :=
  addf (mulf (mulf (devB v1) (broadcastTo S64x256x128 (rstdB v1) broadcasts_S64x256x1_S64x256x128))
      (broadcastTo S64x256x128 (shapeCast S1x1x128 v20 shapeCasts_S128_S1x1x128) broadcasts_S1x1x128_S64x256x128))
    (broadcastTo S64x256x128 (shapeCast S1x1x128 v24 shapeCasts_S128_S1x1x128) broadcasts_S1x1x128_S64x256x128)

theorem meanB_apply (v1 : FVec Ideal S64x256x128 .f32) (a : Fin 64) (k : Fin 256) :
    meanB v1 (ix3 a k (0 : Fin 1)) = mean (fun d => v1 (ix3 a k d)) := by
  unfold meanB mean c128
  rw [divf_apply, keepdim_apply]
  exact congrArg (fun s => Ideal.div s (Ideal.ofBits .f32 0x43000000#32)) (laneSum_apply v1 _ _ _ a k)

theorem devB_apply (v1 : FVec Ideal S64x256x128 .f32) (a : Fin 64) (k : Fin 256) (d : Fin 128) :
    devB v1 (ix3 a k d) = v1 (ix3 a k d) - mean (fun d' => v1 (ix3 a k d')) := by
  unfold devB
  rw [subf_apply, spreadRow_apply, meanB_apply]

theorem varB_apply (v1 : FVec Ideal S64x256x128 .f32) (a : Fin 64) (k : Fin 256) :
    varB v1 (ix3 a k (0 : Fin 1)) = var (fun d => v1 (ix3 a k d)) := by
  unfold varB var c128
  rw [divf_apply, keepdim_apply]
  exact congrArg (fun s => Ideal.div s (Ideal.ofBits .f32 0x43000000#32))
    ((laneSum_apply (mulf (devB v1) (devB v1)) _ _ _ a k).trans
      (Finset.sum_congr rfl fun d _ => by rw [mulf_apply, devB_apply]))

theorem rstdB_apply (v1 : FVec Ideal S64x256x128 .f32) (a : Fin 64) (k : Fin 256) :
    rstdB v1 (ix3 a k (0 : Fin 1)) = Ideal.rsqrt (var (fun d => v1 (ix3 a k d)) + ceps) := by
  unfold rstdB ceps
  show FloatOps.rsqrt (addf (varB v1) _ (ix3 a k (0 : Fin 1))) = _
  rw [addf_apply, varB_apply]
  rfl

/-- The normalised block at (a, k, d) is the normalised row of the block's row (a, k), at channel d. -/
theorem lnB_apply (v1 : FVec Ideal S64x256x128 .f32) (v20 v24 : Vec Ideal S128 .f32) (a : Fin 64) (k : Fin 256) (d : Fin 128) :
    lnB v1 v20 v24 (ix3 a k d) = ln (V1 v20) (V1 v24) (fun d' => v1 (ix3 a k d')) d := by
  unfold lnB ln V1
  rw [addf_apply, mulf_apply, mulf_apply, devB_apply, spreadRow_apply, rstdB_apply, spreadChan_apply, spreadChan_apply,
    chanView_apply, chanView_apply]

/-! ## The product with the bias weights -/

local notation "D0" => dot_S4x128_S16384x128_S4x16384_1_1_0_0_n_n

theorem lhs_0 (i : S4x16384.Idx) (q : (dot_S4x128_S16384x128_S4x16384_1_1_0_0_n_n).contr.Idx) :
    ((dot_S4x128_S16384x128_S4x16384_1_1_0_0_n_n).lhsIdx i q 0).val = (i 0).val := by
  unfold DotDims.lhsIdx
  rw [dif_neg (show ¬(0 : Fin S4x128.rank) ∈ (dot_S4x128_S16384x128_S4x16384_1_1_0_0_n_n).lhsBatch by decide), dif_pos (show (0 : Fin S4x128.rank) ∈ (dot_S4x128_S16384x128_S4x16384_1_1_0_0_n_n).lhsNonContracting by decide)]
  rfl
theorem lhs_1 (i : S4x16384.Idx) (q : (dot_S4x128_S16384x128_S4x16384_1_1_0_0_n_n).contr.Idx) :
    ((dot_S4x128_S16384x128_S4x16384_1_1_0_0_n_n).lhsIdx i q 1).val = (q ⟨0, by decide⟩).val :=
  (dot_S4x128_S16384x128_S4x16384_1_1_0_0_n_n).lhsIdx_val_of_single rfl i q
theorem rhs_0 (i : S4x16384.Idx) (q : (dot_S4x128_S16384x128_S4x16384_1_1_0_0_n_n).contr.Idx) :
    ((dot_S4x128_S16384x128_S4x16384_1_1_0_0_n_n).rhsIdx i q 0).val = (i 1).val := by
  unfold DotDims.rhsIdx
  rw [dif_neg (show ¬(0 : Fin S16384x128.rank) ∈ (dot_S4x128_S16384x128_S4x16384_1_1_0_0_n_n).rhsBatch by decide), dif_pos (show (0 : Fin S16384x128.rank) ∈ (dot_S4x128_S16384x128_S4x16384_1_1_0_0_n_n).rhsNonContracting by decide)]
  rfl
theorem rhs_1 (i : S4x16384.Idx) (q : (dot_S4x128_S16384x128_S4x16384_1_1_0_0_n_n).contr.Idx) :
    ((dot_S4x128_S16384x128_S4x16384_1_1_0_0_n_n).rhsIdx i q 1).val = (q ⟨0, by decide⟩).val :=
  (dot_S4x128_S16384x128_S4x16384_1_1_0_0_n_n).rhsIdx_val_of_single rfl i q

/-- The product into a zero accumulator at (h, n): head h's 128 weights against row n's 128 channels. -/
theorem biasDot_apply (L : FVec Ideal S4x128 .bf16) (R : FVec Ideal S16384x128 .bf16) (hh : Fin 4) (n : Fin 16384) :
    matmul dot_S4x128_S16384x128_S4x16384_1_1_0_0_n_n none L R (constant (F := Ideal) S4x16384 .f32 0x00000000#32) (ix2 hh n)
      = ∑ d : Fin 128, L (ix2 hh d) * R (ix2 n d) := by
  simp only [matmul]
  rw [Ideal.matmul_constant_zero_apply, ← Equiv.sum_comp (contrEquiv1 dot_S4x128_S16384x128_S4x16384_1_1_0_0_n_n 128 rfl rfl).symm]
  refine Finset.sum_congr rfl fun k _ => ?_
  have hk := contrEquiv1_symm_val dot_S4x128_S16384x128_S4x16384_1_1_0_0_n_n 128 rfl rfl k
  have el : (dot_S4x128_S16384x128_S4x16384_1_1_0_0_n_n).lhsIdx (ix2 hh n) ((contrEquiv1 dot_S4x128_S16384x128_S4x16384_1_1_0_0_n_n 128 rfl rfl).symm k) = ix2 hh k := funext fun a => Fin.ext (by
    match a with
    | ⟨0, _⟩ => exact lhs_0 _ _
    | ⟨1, _⟩ => exact (lhs_1 _ _).trans hk)
  have er : (dot_S4x128_S16384x128_S4x16384_1_1_0_0_n_n).rhsIdx (ix2 hh n) ((contrEquiv1 dot_S4x128_S16384x128_S4x16384_1_1_0_0_n_n 128 rfl rfl).symm k) = ix2 n k := funext fun a => Fin.ext (by
    match a with
    | ⟨0, _⟩ => exact rhs_0 _ _
    | ⟨1, _⟩ => exact (rhs_1 _ _).trans hk)
  rw [el, er]

/-! ## The body's stored value -/

/-- The stored value is the product of the bias weights with the flattened normalised block, its flat axis split. -/
theorem pay_eq (v0 : Vec Ideal S1x64x256x128 .f32) (v20 v24 : Vec Ideal S128 .f32) (v30 : Vec Ideal S4x128 .f32) :
    Gen.k0_pay1 (F := Ideal) v0 v20 v24 v30
      = shapeCast S4x64x256 (matmul dot_S4x128_S16384x128_S4x16384_1_1_0_0_n_n none (truncf .bf16 v30 bitsLt_bf16_f32)
          (truncf .bf16 (shapeCast S16384x128 (lnB (shapeCast S64x256x128 v0 shapeCasts_S1x64x256x128_S64x256x128) v20 v24) shapeCasts_S64x256x128_S16384x128) bitsLt_bf16_f32)
          (constant (F := Ideal) S4x16384 .f32 0x00000000#32)) shapeCasts_S4x16384_S4x64x256 := rfl

end Cert.KernelIdeal.BiasValue

end
-- ==== Proof.BiasBlock.lean ====
/-
  What one grid point of the bias projection leaves in its output block: entry (h, a, k) is head h's 128 weights
  against the normalised 128-channel row at (a, k) of the point's input block. The stored value is read through its
  one whole-block store, the loads are whole-block loads, and the rest is the entrywise reading of the block
  arithmetic.
-/
import proofs.«127889_j66589172957486_2_alg».proof.Proof.BiasRows

noncomputable section

namespace Cert.KernelIdeal.BiasValue

open Idealize.ShloMosaic Idealize.ShloMosaic.ValueIdx
open Cert.KernelIdeal Cert.KernelIdeal.Facts₀ Cert.TriAtt

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the output block, entry (h, a, k): head h's 128 weights against the normalised row (a, k)
    of the input block. -/
theorem bias_block (x0 : Vec Ideal S1x64x256x128 .f32) (x1 x2 : Vec Ideal S128 .f32) (x3 : Vec Ideal S4x128 .f32)
    (h : Fin 4) (a : Fin 64) (k : Fin 256) :
    Gen.out0_4 (F := Ideal) x0 x1 x2 x3 (ix3 h a k)
      = ∑ d : Fin 128, x3 (ix2 h d) * ln (V1 x1) (V1 x2) (fun d' => x0 (ix4 (0 : Fin 1) a k d')) d := by
  unfold Gen.out0_4
  rw [View.canon_unit_zero hz3]
  simp only [View.ld_unit_zero (S := S1x64x256x128) hz4, View.ld_unit_zero (S := S128) hz1, View.ld_unit_zero (S := S4x128) hz2]
  rw [pay_eq, splitCols_apply _ _ h a k ⟨a.val * 256 + k.val, by have := a.isLt; have := k.isLt; omega⟩ rfl, biasDot_apply]
  refine Finset.sum_congr rfl fun d _ => ?_
  rw [truncf_apply, truncf_apply, flatRows_apply _ _ a k d _ rfl, lnB_apply]
  exact congrArg (fun r => x3 (ix2 h d) * ln (V1 x1) (V1 x2) r d) (funext fun d' => dropUnit_apply x0 _ a k d')

end Cert.KernelIdeal.BiasValue

end
-- ==== Proof.BiasArray.lean ====
/-
  The bias array after the first region, as one function of the arrays the region finds.

  The grid has four points; point t reads grid rows 64 t … 64 t + 63 of the input (all 256 columns, all 128 channels)
  and the whole weight, offset and bias-weight arrays, and writes rows 64 t … 64 t + 63 of the [4, 256, 256] bias array
  (all four heads, all 256 columns). A block's coordinate on an axis is always block index × block size + the
  coordinate inside the block, so entry (h, a, k) of point t's output block is entry (h, 64 t + a, k) of the array and
  depends on the input row at (64 t + a, k) only. The four blocks tile the array — grid row r is written by point
  r / 64 — so the array ends holding the bias at every index.
-/
import proofs.«127889_j66589172957486_2_alg».proof.Proof.BiasBlock
import Idealize.ShloMosaic.Lib.Tactic

set_option maxRecDepth 16384

noncomputable section

namespace Cert.KernelIdeal.BiasValue

open Idealize.ShloMosaic Idealize.ShloMosaic.TcCoe Idealize.ShloMosaic.ValueIdx Idealize.SL.Sem
open Idealize.ShloMosaic.Pipeline (Dat)
open Cert.KernelIdeal Cert.KernelIdeal.Facts₀ Cert.TriAtt

variable (V : (c : Dev nD) → (b : Ref sig .tc) → Buf (Elt Ideal) ((c : Thread nD τ).loc b))

/-- The printed index maps over the four grid points: the input block and the output block move together along the
    grid-row axis (block t at point t), every other block index is zero. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- The output block's entry at any index of the block, its coordinates read off the index. -/
theorem bias_block_idx (x0 : Vec Ideal S1x64x256x128 .f32) (x1 x2 : Vec Ideal S128 .f32) (x3 : Vec Ideal S4x128 .f32)
    (j : S4x64x256.Idx) :
    Gen.out0_4 (F := Ideal) x0 x1 x2 x3 j
      = ∑ d : Fin 128, x3 (ix2 (⟨(j 0).val, (j 0).isLt⟩ : Fin 4) d)
          * ln (V1 x1) (V1 x2) (fun d' => x0 (ix4 (0 : Fin 1) (⟨(j 1).val, (j 1).isLt⟩ : Fin 64) (⟨(j 2).val, (j 2).isLt⟩ : Fin 256) d')) d := by
  obtain ⟨p, q, r, rfl⟩ : ∃ (p : Fin 4) (q : Fin 64) (r : Fin 256), j = ix3 p q r := ⟨j 0, j 1, j 2, eq_ix3 j⟩
  exact bias_block x0 x1 x2 x3 p q r

/-- The input block at point t is grid rows 64 t … 64 t + 63 of the array. -/
theorem blk0_apply (c : Dev nD) (t : Fin cfg0.N) (a : Fin 64) (k : Fin 256) (d : Fin 128) (i k' : Fin 256)
    (hi : i.val = t.val * 64 + a.val) (hk : k'.val = k.val) :
    (Gen.iblk0 (F := Ideal) V c 0 t : Vec Ideal S1x64x256x128 .f32) (ix4 (0 : Fin 1) a k d) = X4 (V c main_arg0) i k' d := by
  obtain ⟨e0, e1, e2, e3, -⟩ := idx_facts t
  unfold Gen.iblk0 X4
  rw [View.read_apply]
  show V c main_arg0 _ = V c main_arg0 _
  congr 1
  funext b
  apply Fin.ext
  match b with
  | ⟨0, _⟩ => show win0_0.index t (0 : Fin 4) * 1 + 1 * 0 = 0; omega
  | ⟨1, _⟩ => show win0_0.index t (1 : Fin 4) * 64 + 1 * a.val = i.val; omega
  | ⟨2, _⟩ => show win0_0.index t (2 : Fin 4) * 256 + 1 * k.val = k'.val; omega
  | ⟨3, _⟩ => show win0_0.index t (3 : Fin 4) * 128 + 1 * d.val = d.val; omega

/-- The weight, offset and bias-weight blocks are their whole arrays at every point. -/
theorem blk1_apply (c : Dev nD) (t : Fin cfg0.N) (d : Fin 128) :
    (Gen.iblk0 (F := Ideal) V c 1 t : Vec Ideal S128 .f32) (ix1 d) = V1 (V c main_arg1) d := by
  obtain ⟨-, -, -, -, e, -⟩ := idx_facts t
  unfold Gen.iblk0 V1
  rw [View.read_apply]
  show V c main_arg1 _ = V c main_arg1 _
  congr 1
  funext b
  apply Fin.ext
  match b with
  | ⟨0, _⟩ => show win0_1.index t (0 : Fin 1) * 128 + 1 * d.val = d.val; omega

theorem blk2_apply (c : Dev nD) (t : Fin cfg0.N) (d : Fin 128) :
    (Gen.iblk0 (F := Ideal) V c 2 t : Vec Ideal S128 .f32) (ix1 d) = V1 (V c main_arg2) d := by
  obtain ⟨-, -, -, -, -, e, -⟩ := idx_facts t
  unfold Gen.iblk0 V1
  rw [View.read_apply]
  show V c main_arg2 _ = V c main_arg2 _
  congr 1
  funext b
  apply Fin.ext
  match b with
  | ⟨0, _⟩ => show win0_2.index t (0 : Fin 1) * 128 + 1 * d.val = d.val; omega

theorem blk3_apply (c : Dev nD) (t : Fin cfg0.N) (h h' : Fin 4) (hh : h'.val = h.val) (d : Fin 128) :
    (Gen.iblk0 (F := Ideal) V c 3 t : Vec Ideal S4x128 .f32) (ix2 h d) = M4 (V c main_arg3) h' d := by
  obtain ⟨-, -, -, -, -, -, e0, e1, -⟩ := idx_facts t
  unfold Gen.iblk0 M4
  rw [View.read_apply]
  show V c main_arg3 _ = V c main_arg3 _
  congr 1
  funext b
  apply Fin.ext
  match b with
  | ⟨0, _⟩ => show win0_3.index t (0 : Fin 2) * 4 + 1 * h.val = h'.val; omega
  | ⟨1, _⟩ => show win0_3.index t (1 : Fin 2) * 128 + 1 * d.val = d.val; omega

/-- What point t writes back is block t of the bias array of the arrays the region finds. -/
theorem flushed_eq (c : Dev nD) (t : Fin cfg0.N) :
    (Gen.dat0 (F := Ideal) V c).flushed 4 t
      = ((cfg0.win 4).blk t).view.read (Elt Ideal) (triArr (V c main_arg0) (V c main_arg1) (V c main_arg2) (V c main_arg3)) := by
  show (cfg0.win 4).cut (grid0.coords t) ((Gen.dat0 (F := Ideal) V c).after 4 t) = _
  rw [Gen.after0_4]
  obtain ⟨-, -, -, -, -, -, -, -, e0, e1, e2⟩ := idx_facts t
  funext j
  show Gen.out0_4 (F := Ideal) (Gen.iblk0 V c 0 t) (Gen.iblk0 V c 1 t) (Gen.iblk0 V c 2 t) (Gen.iblk0 V c 3 t) j
    = triArr (V c main_arg0) (V c main_arg1) (V c main_arg2) (V c main_arg3) (((cfg0.win 4).blk t).view.emb j)
  refine (bias_block_idx _ _ _ _ j).trans ?_
  unfold triArr tri
  have hj0 : (j 0).val < 4 := (j 0).isLt
  have hj1 : (j 1).val < 64 := (j 1).isLt
  have hj2 : (j 2).val < 256 := (j 2).isLt
  have m0 : ((((cfg0.win 4).blk t).view.emb j) 0).val = (j 0).val := by
    show win0_4.index t (0 : Fin 3) * 4 + 1 * (j 0).val = (j 0).val; omega
  have m1 : ((((cfg0.win 4).blk t).view.emb j) 1).val = t.val * 64 + (j 1).val := by
    show win0_4.index t (1 : Fin 3) * 64 + 1 * (j 1).val = t.val * 64 + (j 1).val; omega
  have m2 : ((((cfg0.win 4).blk t).view.emb j) 2).val = (j 2).val := by
    show win0_4.index t (2 : Fin 3) * 256 + 1 * (j 2).val = (j 2).val; omega
  refine Finset.sum_congr rfl fun d _ => ?_
  have h3 := blk3_apply V c t ⟨(j 0).val, hj0⟩ ⟨((((cfg0.win 4).blk t).view.emb j) 0).val, ((((cfg0.win 4).blk t).view.emb j) 0).isLt⟩ m0 d
  have hw : V1 (Gen.iblk0 (F := Ideal) V c 1 t) = V1 (V c main_arg1) := funext fun d' => blk1_apply V c t d'
  have hb : V1 (Gen.iblk0 (F := Ideal) V c 2 t) = V1 (V c main_arg2) := funext fun d' => blk2_apply V c t d'
  have h0 : (fun d' => (Gen.iblk0 (F := Ideal) V c 0 t : Vec Ideal S1x64x256x128 .f32) (ix4 (0 : Fin 1) (⟨(j 1).val, hj1⟩ : Fin 64) (⟨(j 2).val, hj2⟩ : Fin 256) d'))
      = X4 (V c main_arg0) ⟨((((cfg0.win 4).blk t).view.emb j) 1).val, ((((cfg0.win 4).blk t).view.emb j) 1).isLt⟩
          ⟨((((cfg0.win 4).blk t).view.emb j) 2).val, ((((cfg0.win 4).blk t).view.emb j) 2).isLt⟩ :=
    funext fun d' => blk0_apply V c t ⟨(j 1).val, hj1⟩ ⟨(j 2).val, hj2⟩ d' _ _ m1 m2
  rw [h3, hw, hb, h0]

/-- An index of the bias array lies in point t's block iff each coordinate lies in the block's range on its axis. -/
theorem mem_blk (t : Fin cfg0.N) (i : S4x256x256.Idx) :
    i ∈ ((cfg0.win 4).blk t).view.set
      ↔ ∀ a : Fin 3, win0_4.index t a * S4x64x256.size a ≤ (i a).val ∧ (i a).val < win0_4.index t a * S4x64x256.size a + S4x64x256.size a := by
  show i ∈ ((View.whole main_v0).slice (win0_4.rect t)).set ↔ _
  rw [View.set_slice_whole, Rect.mem_set_unit]
  exact Iff.rfl

/-- Every index of the bias array is in some point's block: grid row r is written by point r / 64. -/
theorem covered (i : S4x256x256.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 256 := (i 2).isLt
  have hN : cfg0.N = 4 := Gen.N_0
  refine ⟨⟨(i 1).val / 64, by rw [hN]; omega⟩, Gen.flush0_4 _, ?_⟩
  obtain ⟨-, -, -, -, -, -, -, -, e0, e1, e2⟩ := idx_facts ⟨(i 1).val / 64, by rw [hN]; omega⟩
  rw [mem_blk]
  intro a
  match a with
  | ⟨0, _⟩ => show win0_4.index _ (0 : Fin 3) * 4 ≤ (i 0).val ∧ (i 0).val < win0_4.index _ (0 : Fin 3) * 4 + 4; rw [e0]; omega
  | ⟨1, _⟩ => show win0_4.index _ (1 : Fin 3) * 64 ≤ (i 1).val ∧ (i 1).val < win0_4.index _ (1 : Fin 3) * 64 + 64; rw [e1]; show (i 1).val / 64 * 64 ≤ (i 1).val ∧ (i 1).val < (i 1).val / 64 * 64 + 64; omega
  | ⟨2, _⟩ => show win0_4.index _ (2 : Fin 3) * 256 ≤ (i 2).val ∧ (i 2).val < win0_4.index _ (2 : Fin 3) * 256 + 256; rw [e2]; omega

/-- The bias array after the first region: the bias of the arrays the region finds, at every index. -/
theorem bias_array (c : Dev nD) :
    (Gen.dat0 (F := Ideal) V c).arrAt 4 cfg0.N = triArr (V c main_arg0) (V c main_arg1) (V c main_arg2) (V c main_arg3) :=
  (Gen.dat0 (F := Ideal) V c).arrAt_eq_of_cover 4 (triArr (V c main_arg0) (V c main_arg1) (V c main_arg2) (V c main_arg3))
    (fun t _ => flushed_eq V c t) covered

end Cert.KernelIdeal.BiasValue

end
-- ==== Proof.KernelValue.lean ====
/-
  The kernel program's result is the specification's.  The last boundary of the run names the result array as one host
  operation — a broadcast that puts a leading unit axis on a [256, 256, 128] array — applied to the second region's output
  array.  That array, after the region's sixteen points, is the specification's attention array of the arrays the region
  finds: the nine arguments, which are still the launch contents (the first region writes none of them), and the bias
  array, which the first region has left holding the specification's bias of the launch contents.  A broadcast along a new
  leading unit axis read at an index (0, i, j, c) is the operand at (i, j, c), which is how the specification's result is
  defined from its attention array.
-/
import proofs.«127889_j66589172957486_2_alg».proof.Proof.KernelRun
import proofs.«127889_j66589172957486_2_alg».proof.Proof.AttnArray
import proofs.«127889_j66589172957486_2_alg».proof.Proof.BiasArray
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.TriAtt

section
variable (m : (ℓ : Loc nD τ sig) → Buf (Elt Ideal) ℓ) (ρ : Dev nD → PrngReg) (c : Dev nD)

/-! ## The arguments as the second region finds them: as launched

The first region writes only its output array; its four input arrays are kept, and the five weight arrays of the
second region are not among its arrays at all. -/

theorem V1_arg0 : Gen.V1 (F := Ideal) m ρ c main_arg0 = m ((c.tc : Thread nD τ).loc main_arg0) :=
  (W1_arr m ρ c 0).trans (((dat0 (V0 m ρ) c).arrAt_in 0 rfl _).trans (A_eq0 (V0 m ρ) c 0))
theorem V1_arg1 : Gen.V1 (F := Ideal) m ρ c main_arg1 = m ((c.tc : Thread nD τ).loc main_arg1) :=
  (W1_arr m ρ c 1).trans (((dat0 (V0 m ρ) c).arrAt_in 1 rfl _).trans (A_eq0 (V0 m ρ) c 1))
theorem V1_arg2 : Gen.V1 (F := Ideal) m ρ c main_arg2 = m ((c.tc : Thread nD τ).loc main_arg2) :=
  (W1_arr m ρ c 2).trans (((dat0 (V0 m ρ) c).arrAt_in 2 rfl _).trans (A_eq0 (V0 m ρ) c 2))
theorem V1_arg3 : Gen.V1 (F := Ideal) m ρ c main_arg3 = m ((c.tc : Thread nD τ).loc main_arg3) :=
  (W1_arr m ρ c 3).trans (((dat0 (V0 m ρ) c).arrAt_in 3 rfl _).trans (A_eq0 (V0 m ρ) c 3))
theorem V1_arg4 : Gen.V1 (F := Ideal) m ρ c main_arg4 = m ((c.tc : Thread nD τ).loc main_arg4) :=
  W1_of_ne m ρ c main_arg4 (by decide)
theorem V1_arg5 : Gen.V1 (F := Ideal) m ρ c main_arg5 = m ((c.tc : Thread nD τ).loc main_arg5) :=
  W1_of_ne m ρ c main_arg5 (by decide)
theorem V1_arg6 : Gen.V1 (F := Ideal) m ρ c main_arg6 = m ((c.tc : Thread nD τ).loc main_arg6) :=
  W1_of_ne m ρ c main_arg6 (by decide)
theorem V1_arg7 : Gen.V1 (F := Ideal) m ρ c main_arg7 = m ((c.tc : Thread nD τ).loc main_arg7) :=
  W1_of_ne m ρ c main_arg7 (by decide)
theorem V1_arg8 : Gen.V1 (F := Ideal) m ρ c main_arg8 = m ((c.tc : Thread nD τ).loc main_arg8) :=
  W1_of_ne m ρ c main_arg8 (by decide)

/-! ## The last boundary: the one host operation on the second region's output array -/

/-- The result array at the last boundary is the leading-unit-axis broadcast of the second region's output array. -/
theorem tail_eq : Gen.W3 (F := Ideal) m ρ c (Proc.devRef .tc main_v2)
    = broadcastInDim S1x256x256x128 ![1, 2, 3] bcast_S256x256x128_S1x256x256x128_1_2_3 (Gen.W2 (F := Ideal) m ρ c (Proc.devRef .tc main_v1)) := by
  show StableHlo.after Gen.hostOps2 (Gen.W2 m ρ c) (Proc.devRef .tc main_v2) = _
  dsimp only [Gen.hostOps2]
  after_results

section chain
variable (hb : ∀ (V : (c : Dev nD) → (b : Ref sig .tc) → Buf (Elt Ideal) ((c : Thread nD τ).loc b)) (c : Dev nD),
  (Gen.dat0 (F := Ideal) V c).arrAt 4 cfg0.N = triArr (V c main_arg0) (V c main_arg1) (V c main_arg2) (V c main_arg3))
include hb

/-- The bias array as the second region finds it: the specification's, of the launch contents. -/
theorem bias_eq : Gen.V1 (F := Ideal) m ρ c main_v0 = triArr (m ((c.tc : Thread nD τ).loc main_arg0)) (m ((c.tc : Thread nD τ).loc main_arg1)) (m ((c.tc : Thread nD τ).loc main_arg2)) (m ((c.tc : Thread nD τ).loc main_arg3)) :=
  (W1_arr m ρ c 4).trans (hb (V0 m ρ) c)

/-- The second region's output array after its sixteen points: the specification's, of the launch contents. -/
theorem arr_eq : Gen.W2 (F := Ideal) m ρ c (Proc.devRef .tc main_v1) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hT : Gen.V1 (F := Ideal) m ρ c main_v0 = triArr (Gen.V1 m ρ c main_arg0) (Gen.V1 m ρ c main_arg1) (Gen.V1 m ρ c main_arg2) (Gen.V1 m ρ c main_arg3) := by
    rw [V1_arg0, V1_arg1, V1_arg2, V1_arg3]; exact bias_eq m ρ c hb
  have h := AttnValue.attn_array (Gen.V1 m ρ) c hT
  rw [V1_arg0, V1_arg1, V1_arg2, V1_arg3, V1_arg4, V1_arg5, V1_arg6, V1_arg7, V1_arg8] at h
  exact (W2_arr m ρ c 9).trans h

/-- THE RESULT at the last boundary is the specification's result of the launch contents. -/
theorem result_eq_of : Gen.W3 (F := Ideal) m ρ c (Proc.devRef .tc main_v2) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (tail_eq m ρ c).trans ?_
  rw [arr_eq m ρ c hb]
  funext y
  refine (broadcastInDim_apply _ bcast_S256x256x128_S1x256x256x128_1_2_3 _ y
    (ix3 (⟨(y 1).val, (y 1).isLt⟩ : Fin 256) (⟨(y 2).val, (y 2).isLt⟩ : Fin 256) (⟨(y 3).val, (y 3).isLt⟩ : Fin 128)) (fun a => match a with
    | ⟨0, _⟩ => by show (y 1).val = if (256 : Nat) = 1 then 0 else (y 1).val; rw [if_neg (by decide)]
    | ⟨1, _⟩ => by show (y 2).val = if (256 : Nat) = 1 then 0 else (y 2).val; rw [if_neg (by decide)]
    | ⟨2, _⟩ => by show (y 3).val = if (128 : Nat) = 1 then 0 else (y 3).val; rw [if_neg (by decide)])).trans ?_
  rfl

/-- The run, read: every weakly fair execution terminates without a fault, the result array ends at the specification's
    result of the launch contents, and the nine argument arrays end as launched. -/
theorem run_value_of : θ_run defs (onTc (τ := τ) (main (F := Ideal))) ⟨m, fun _ => 0, ρ⟩ (fun r => ∀ c : Dev nD,
      r.2.mem ((c.tc : Thread nD τ).loc main_v2) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq_of m ρ c hb), (h c).2⟩) (run_named m ρ)

end chain

/-- THE RESULT at the last boundary is the specification's result of the launch contents. -/
theorem result_eq : Gen.W3 (F := Ideal) m ρ c (Proc.devRef .tc main_v2) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  result_eq_of m ρ c BiasValue.bias_array

end

section
variable (m : (ℓ : Loc nD τ sig) → Buf (Elt Ideal) ℓ) (ρ : Dev nD → PrngReg)

/-- The run, read: every weakly fair execution terminates without a fault, the result array ends at the specification's
    result of the launch contents, and the nine argument arrays end as launched. -/
theorem run_value : θ_run defs (onTc (τ := τ) (main (F := Ideal))) ⟨m, fun _ => 0, ρ⟩ (fun r => ∀ c : Dev nD,
      r.2.mem ((c.tc : Thread nD τ).loc main_v2) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named m ρ)

end

end Cert.KernelIdeal.RunValue

end
-- ==== Proof.RefNorm.lean ====
/-
  The reference's normalised rows and its bias, read index by index.
-/
import proofs.«127889_j66589172957486_2_alg».proof.Proof.Gen.ReferenceIdeal.Read
import proofs.«127889_j66589172957486_2_alg».proof.Proof.TriAtt

noncomputable section

namespace Cert.ReferenceIdeal.RefValue

open Cert.ReferenceIdeal Cert.ReferenceIdeal.Gen Cert.ReferenceIdeal.Read Cert.TriAtt Idealize.ShloMosaic Idealize.ShloMosaic.ValueIdx

/-- The grid array [1, 256, 256, 128]. -/
abbrev TX : Type := (⟨S1x256x256x128, .f32⟩ : BufTy).Contents (Elt Ideal)
/-- A vector of 128 channels. -/
abbrev TV : Type := (⟨S128, .f32⟩ : BufTy).Contents (Elt Ideal)
/-- The bias weights [4, 128]. -/
abbrev TB : Type := (⟨S4x128, .f32⟩ : BufTy).Contents (Elt Ideal)
/-- A weight matrix [128, 128]. -/
abbrev TW : Type := (⟨S128x128, .f32⟩ : BufTy).Contents (Elt Ideal)

/-! ## Dropping the leading unit axis -/

theorem idx_v0 (i j : Fin 256) (d : Fin 128) : idx_main_v0 (ix3 i j d) = ix4 (0 : Fin 1) i j d := by
  funext a; apply Fin.ext
  have := i.isLt; have := j.isLt; have := d.isLt
  match a with
  | ⟨0, _⟩ => rfl
  | ⟨1, _⟩ => show ((i.val * 256 + j.val) * 128 + d.val) / 32768 % 256 = i.val; omega
  | ⟨2, _⟩ => show ((i.val * 256 + j.val) * 128 + d.val) / 128 % 256 = j.val; omega
  | ⟨3, _⟩ => show ((i.val * 256 + j.val) * 128 + d.val) % 128 = d.val; omega

theorem v0_at (x0 : TX) (i j : Fin 256) (d : Fin 128) :
    val_main_v0 (F := Ideal) x0 (ix3 i j d) = X4 x0 i j d := by
  rw [val_main_v0_apply, idx_v0]; rfl

/-! ## The mean of a row -/

theorem v1_at (x0 : TX) (i j : Fin 256) :
    val_main_v1 (F := Ideal) x0 (ix2 i j) = ∑ d, X4 x0 i j d := by
  rw [val_main_v1_apply, val_main_cst_apply, Ideal.ofBits_def, Ideal.ofBits_zero_f32, zero_add]
  refine Finset.sum_congr rfl fun d _ => ?_
  have e : idx_main_v1 (ix2 i j) d = ix3 i j d := by funext a; apply Fin.ext; fin_cases a <;> rfl
  rw [e]; exact v0_at x0 i j d

theorem v4_at (x0 : TX) (i j : Fin 256) (z : Fin 1) :
    val_main_v4 (F := Ideal) x0 (ix3 i j z) = mean (X4 x0 i j) := by
  rw [val_main_v4_apply, val_main_v2_apply, val_main_v3_apply, val_main_cst_0_apply, Ideal.hostDivf_def, Ideal.ofBits_def]
  have e : idx_main_v2 (ix3 i j z) = ix2 i j := by funext a; apply Fin.ext; fin_cases a <;> rfl
  rw [e, v1_at]; rfl

theorem v5_at (x0 : TX) (i j : Fin 256) (d : Fin 128) :
    val_main_v5 (F := Ideal) x0 (ix3 i j d) = mean (X4 x0 i j) := by
  rw [val_main_v5_apply]
  have e : idx_main_v5 (ix3 i j d) = ix3 i j (0 : Fin 1) := by funext a; apply Fin.ext; fin_cases a <;> rfl
  rw [e, v4_at]

theorem v12_at (x0 : TX) (i j : Fin 256) (d : Fin 128) :
    val_main_v12 (F := Ideal) x0 (ix3 i j d) = mean (X4 x0 i j) := by
  rw [val_main_v12_apply]
  have e : idx_main_v12 (ix3 i j d) = ix3 i j (0 : Fin 1) := by funext a; apply Fin.ext; fin_cases a <;> rfl
  rw [e, v4_at]

/-! ## The variance of a row -/

theorem v6_at (x0 : TX) (i j : Fin 256) (d : Fin 128) :
    val_main_v6 (F := Ideal) x0 (ix3 i j d) = X4 x0 i j d - mean (X4 x0 i j) := by
  rw [val_main_v6_apply]
  rw [v0_at]
  rw [v5_at]
  rw [Ideal.subf_def]

theorem v7_at (x0 : TX) (i j : Fin 256) (d : Fin 128) :
    val_main_v7 (F := Ideal) x0 (ix3 i j d)
      = (X4 x0 i j d - mean (X4 x0 i j)) * (X4 x0 i j d - mean (X4 x0 i j)) := by
  rw [val_main_v7_apply, v6_at]
  exact Ideal.mulf_def _ _

theorem v8_at (x0 : TX) (i j : Fin 256) :
    val_main_v8 (F := Ideal) x0 (ix2 i j)
      = ∑ d, (X4 x0 i j d - mean (X4 x0 i j)) * (X4 x0 i j d - mean (X4 x0 i j)) := by
  rw [val_main_v8_apply, val_main_cst_1_apply, Ideal.ofBits_def, Ideal.ofBits_zero_f32, zero_add]
  refine Finset.sum_congr rfl fun d _ => ?_
  have e : idx_main_v8 (ix2 i j) d = ix3 i j d := by funext a; apply Fin.ext; fin_cases a <;> rfl
  rw [e]; exact v7_at x0 i j d

theorem v11_at (x0 : TX) (i j : Fin 256) (z : Fin 1) :
    val_main_v11 (F := Ideal) x0 (ix3 i j z) = var (X4 x0 i j) := by
  rw [val_main_v11_apply, val_main_v9_apply, val_main_v10_apply, val_main_cst_2_apply, Ideal.hostDivf_def, Ideal.ofBits_def]
  have e : idx_main_v9 (ix3 i j z) = ix2 i j := by funext a; apply Fin.ext; fin_cases a <;> rfl
  rw [e, v8_at]; rfl

/-! ## The normalised row -/

theorem v17_at (x0 : TX) (i j : Fin 256) (d : Fin 128) :
    val_main_v17 (F := Ideal) x0 (ix3 i j d) = Ideal.rsqrt (var (X4 x0 i j) + ceps) := by
  rw [val_main_v17_apply]
  have e : idx_main_v17 (ix3 i j d) = ix3 i j (0 : Fin 1) := by funext a; apply Fin.ext; fin_cases a <;> rfl
  rw [e, val_main_v16_apply, val_main_v15_apply, v11_at, val_main_v14_apply, val_main_cst_3_apply,
    Ideal.hostUnary_rsqrt_def, Ideal.addf_def, Ideal.ofBits_def]
  rfl

theorem v20_at (x1 : TV) (i j : Fin 256) (d : Fin 128) :
    val_main_v20 (F := Ideal) x1 (ix3 i j d) = V1 x1 d := by
  rw [val_main_v20_apply, val_main_v19_apply]
  exact congrArg x1 (by funext a; apply Fin.ext; fin_cases a; rfl)

theorem v23_at (x2 : TV) (i j : Fin 256) (d : Fin 128) :
    val_main_v23 (F := Ideal) x2 (ix3 i j d) = V1 x2 d := by
  rw [val_main_v23_apply, val_main_v22_apply]
  exact congrArg x2 (by funext a; apply Fin.ext; fin_cases a; rfl)

/-- The reference's normalised array at (i, j, d) is the normalised row of the grid at (i, j), channel d. -/
theorem v24_at (x0 : TX) (x1 x2 : TV) (i j : Fin 256) (d : Fin 128) :
    val_main_v24 (F := Ideal) x0 x1 x2 (ix3 i j d) = ln (V1 x1) (V1 x2) (X4 x0 i j) d := by
  rw [val_main_v24_apply, val_main_v21_apply, val_main_v18_apply, val_main_v13_apply, v0_at, v12_at, v17_at, v20_at, v23_at]
  rfl

/-! ## The bias -/

/-- The reference's bias array at (h, j, k) is the head's weights against the normalised row at grid position (j, k). -/
theorem v25_at (x0 : TX) (x1 x2 : TV) (x3 : TB) (h : Fin 4) (j k : Fin 256) :
    val_main_v25 (F := Ideal) x0 x1 x2 x3 (ix3 h j k) = tri (X4 x0) (V1 x1) (V1 x2) (M4 x3) h j k := by
  rw [val_main_v25_apply]
  unfold tri
  refine Finset.sum_congr rfl fun d _ => ?_
  have el : lidx_main_v25 (ix3 h j k) d = ix2 h d := by funext a; apply Fin.ext; fin_cases a <;> rfl
  have er : ridx_main_v25 (ix3 h j k) d = ix3 j k d := by funext a; apply Fin.ext; fin_cases a <;> rfl
  rw [el, er, v24_at]; rfl

end Cert.ReferenceIdeal.RefValue

end
-- ==== Proof.RefProj.lean ====
/-
  The reference's four projections of the normalised rows, whole and head by head.
-/
import proofs.«127889_j66589172957486_2_alg».proof.Proof.Gen.ReferenceIdeal.Read
import proofs.«127889_j66589172957486_2_alg».proof.Proof.TriAtt
import proofs.«127889_j66589172957486_2_alg».proof.Proof.RefNorm

noncomputable section

namespace Cert.ReferenceIdeal.RefValue

open Cert.ReferenceIdeal Cert.ReferenceIdeal.Gen Cert.ReferenceIdeal.Read Cert.TriAtt Idealize.ShloMosaic Idealize.ShloMosaic.ValueIdx

/-! ## The four projections: query, key, value, gate -/

theorem v26_at (x0 : TX) (x1 x2 : TV) (x4 : TW) (i j : Fin 256) (e : Fin 128) :
    val_main_v26 (F := Ideal) x0 x1 x2 x4 (ix3 i j e) = linR (X4 x0 i) (V1 x1) (V1 x2) (M2 x4) j e := by
  rw [val_main_v26_apply]
  unfold linR hnR
  refine Finset.sum_congr rfl fun d _ => ?_
  have el : lidx_main_v26 (ix3 i j e) d = ix3 i j d := by funext a; apply Fin.ext; fin_cases a <;> rfl
  have er : ridx_main_v26 (ix3 i j e) d = ix2 e d := by funext a; apply Fin.ext; fin_cases a <;> rfl
  rw [el, er, v24_at]; rfl

theorem v29_at (x0 : TX) (x1 x2 : TV) (x5 : TW) (i j : Fin 256) (e : Fin 128) :
    val_main_v29 (F := Ideal) x0 x1 x2 x5 (ix3 i j e) = linR (X4 x0 i) (V1 x1) (V1 x2) (M2 x5) j e := by
  rw [val_main_v29_apply]
  unfold linR hnR
  refine Finset.sum_congr rfl fun d _ => ?_
  have el : lidx_main_v29 (ix3 i j e) d = ix3 i j d := by funext a; apply Fin.ext; fin_cases a <;> rfl
  have er : ridx_main_v29 (ix3 i j e) d = ix2 e d := by funext a; apply Fin.ext; fin_cases a <;> rfl
  rw [el, er, v24_at]; rfl

theorem v32_at (x0 : TX) (x1 x2 : TV) (x6 : TW) (i j : Fin 256) (e : Fin 128) :
    val_main_v32 (F := Ideal) x0 x1 x2 x6 (ix3 i j e) = linR (X4 x0 i) (V1 x1) (V1 x2) (M2 x6) j e := by
  rw [val_main_v32_apply]
  unfold linR hnR
  refine Finset.sum_congr rfl fun d _ => ?_
  have el : lidx_main_v32 (ix3 i j e) d = ix3 i j d := by funext a; apply Fin.ext; fin_cases a <;> rfl
  have er : ridx_main_v32 (ix3 i j e) d = ix2 e d := by funext a; apply Fin.ext; fin_cases a <;> rfl
  rw [el, er, v24_at]; rfl

theorem v55_at (x0 : TX) (x1 x2 : TV) (x7 : TW) (i j : Fin 256) (e : Fin 128) :
    val_main_v55 (F := Ideal) x0 x1 x2 x7 (ix3 i j e) = linR (X4 x0 i) (V1 x1) (V1 x2) (M2 x7) j e := by
  rw [val_main_v55_apply]
  unfold linR hnR
  refine Finset.sum_congr rfl fun d _ => ?_
  have el : lidx_main_v55 (ix3 i j e) d = ix3 i j d := by funext a; apply Fin.ext; fin_cases a <;> rfl
  have er : ridx_main_v55 (ix3 i j e) d = ix2 e d := by funext a; apply Fin.ext; fin_cases a <;> rfl
  rw [el, er, v24_at]; rfl

/-! ## The projections by head: channel 32 h + d of the projected row belongs to head h

  The reference reshapes the 128 channels into 4 × 32 and moves the head axis to the front. -/

/-- Flattening (i, j, h, d) over [256, 256, 4, 32] and reading it over [256, 256, 128] gives (i, j, 32 h + d). -/
theorem idx_split (i j : Fin 256) (h : Fin 4) (d : Fin 32) : idx_main_v27 (ix4 i j h d) = ix3 i j (he h d) := by
  funext a; apply Fin.ext
  have := i.isLt; have := j.isLt; have := h.isLt; have := d.isLt
  match a with
  | ⟨0, _⟩ => show (((i.val * 256 + j.val) * 4 + h.val) * 32 + d.val) / 32768 = i.val; omega
  | ⟨1, _⟩ => show (((i.val * 256 + j.val) * 4 + h.val) * 32 + d.val) / 128 % 256 = j.val; omega
  | ⟨2, _⟩ => show (((i.val * 256 + j.val) * 4 + h.val) * 32 + d.val) % 128 = h.val * 32 + d.val; omega

theorem v28_at (x0 : TX) (x1 x2 : TV) (x4 : TW) (h : Fin 4) (i j : Fin 256) (d : Fin 32) :
    val_main_v28 (F := Ideal) x0 x1 x2 x4 (ix4 h i j d) = linR (X4 x0 i) (V1 x1) (V1 x2) (M2 x4) j (he h d) := by
  rw [val_main_v28_apply, val_main_v27_apply]
  have e1 : idx_main_v28 (ix4 h i j d) = ix4 i j h d := by funext a; apply Fin.ext; fin_cases a <;> rfl
  have e2 : idx_main_v27 (ix4 i j h d) = ix3 i j (he h d) := idx_split i j h d
  rw [e1, e2, v26_at]

theorem v31_at (x0 : TX) (x1 x2 : TV) (x5 : TW) (h : Fin 4) (i j : Fin 256) (d : Fin 32) :
    val_main_v31 (F := Ideal) x0 x1 x2 x5 (ix4 h i j d) = linR (X4 x0 i) (V1 x1) (V1 x2) (M2 x5) j (he h d) := by
  rw [val_main_v31_apply, val_main_v30_apply]
  have e1 : idx_main_v31 (ix4 h i j d) = ix4 i j h d := by funext a; apply Fin.ext; fin_cases a <;> rfl
  have e2 : idx_main_v30 (ix4 i j h d) = ix3 i j (he h d) := idx_split i j h d
  rw [e1, e2, v29_at]

theorem v34_at (x0 : TX) (x1 x2 : TV) (x6 : TW) (h : Fin 4) (i j : Fin 256) (d : Fin 32) :
    val_main_v34 (F := Ideal) x0 x1 x2 x6 (ix4 h i j d) = linR (X4 x0 i) (V1 x1) (V1 x2) (M2 x6) j (he h d) := by
  rw [val_main_v34_apply, val_main_v33_apply]
  have e1 : idx_main_v34 (ix4 h i j d) = ix4 i j h d := by funext a; apply Fin.ext; fin_cases a <;> rfl
  have e2 : idx_main_v33 (ix4 i j h d) = ix3 i j (he h d) := idx_split i j h d
  rw [e1, e2, v32_at]

end Cert.ReferenceIdeal.RefValue

end
-- ==== Proof.RefSoft.lean ====
/-
  The reference's scores, their row maxima, the weights and the weighted averages of the values.
-/
import proofs.«127889_j66589172957486_2_alg».proof.Proof.Gen.ReferenceIdeal.Read
import proofs.«127889_j66589172957486_2_alg».proof.Proof.TriAtt
import proofs.«127889_j66589172957486_2_alg».proof.Proof.RefProj

noncomputable section

namespace Cert.ReferenceIdeal.RefValue

open Cert.ReferenceIdeal Cert.ReferenceIdeal.Gen Cert.ReferenceIdeal.Read Cert.TriAtt Idealize.ShloMosaic Idealize.ShloMosaic.ValueIdx

/-! ## The scores -/

/-- The bias the reference computes, as a function of (head, column, column). -/
abbrev bias (x0 : TX) (x1 x2 : TV) (x3 : TB) : Fin 4 → Fin 256 → Fin 256 → EReal :=
  tri (X4 x0) (V1 x1) (V1 x2) (M4 x3)

/-- The row of scores of grid row i, head h, column j. -/
abbrev sc (x0 : TX) (x1 x2 : TV) (x3 : TB) (x4 x5 : TW) (i : Fin 256) (h : Fin 4) (j : Fin 256) : Fin 256 → EReal :=
  scoreR (X4 x0 i) (bias x0 x1 x2 x3) (V1 x1) (V1 x2) (M2 x4) (M2 x5) h j

theorem v35_at (x0 : TX) (x1 x2 : TV) (x4 x5 : TW) (h : Fin 4) (i j k : Fin 256) :
    val_main_v35 (F := Ideal) x0 x1 x2 x4 x5 (ix4 h i j k)
      = ∑ d : Fin 32, linR (X4 x0 i) (V1 x1) (V1 x2) (M2 x4) j (he h d) * linR (X4 x0 i) (V1 x1) (V1 x2) (M2 x5) k (he h d) := by
  rw [val_main_v35_apply]
  refine Finset.sum_congr rfl fun d _ => ?_
  have el : lidx_main_v35 (ix4 h i j k) d = ix4 h i j d := by funext a; apply Fin.ext; fin_cases a <;> rfl
  have er : ridx_main_v35 (ix4 h i j k) d = ix4 h i k d := by funext a; apply Fin.ext; fin_cases a <;> rfl
  rw [el, er, v28_at, v31_at]

theorem v39_at (x0 : TX) (x1 x2 : TV) (x3 : TB) (h : Fin 4) (i j k : Fin 256) :
    val_main_v39 (F := Ideal) x0 x1 x2 x3 (ix4 h i j k) = bias x0 x1 x2 x3 h j k := by
  rw [val_main_v39_apply, val_main_v38_apply]
  have e1 : idx_main_v39 (ix4 h i j k) = ix4 h (0 : Fin 1) j k := by funext a; apply Fin.ext; fin_cases a <;> rfl
  have e2 : idx_main_v38 (ix4 h (0 : Fin 1) j k) = ix3 h j k := by funext a; apply Fin.ext; fin_cases a <;> rfl
  rw [e1, e2, v25_at]

/-- The reference's score array at (h, i, j, k) is the score of head h between columns j and k of grid row i. -/
theorem v40_at (x0 : TX) (x1 x2 : TV) (x3 : TB) (x4 x5 : TW) (h : Fin 4) (i j k : Fin 256) :
    val_main_v40 (F := Ideal) x0 x1 x2 x3 x4 x5 (ix4 h i j k) = sc x0 x1 x2 x3 x4 x5 i h j k := by
  rw [val_main_v40_apply, val_main_v37_apply, v35_at, v39_at, val_main_v36_apply, val_main_cst_4_apply]
  unfold sc scoreR cscale
  rfl

/-! ## The maximum of a row of scores -/

theorem v41_at (x0 : TX) (x1 x2 : TV) (x3 : TB) (x4 x5 : TW) (h : Fin 4) (i j : Fin 256) :
    val_main_v41 (F := Ideal) x0 x1 x2 x3 x4 x5 (ix3 h i j) = rowmax (sc x0 x1 x2 x3 x4 x5 i h j) := by
  have hR : S4x256x256x256.Reduces [3] S4x256x256 := by decide
  unfold val_main_v41
  rw [Host.reduce_eq_fold_single FloatOps.maximumf _ _ reducesTo_S4x256x256x256_S4x256x256_d3 hR h_S_]
  have hf : (val_main_v40 (F := Ideal) x0 x1 x2 x3 x4 x5 ∘ hR.lift (ix3 h i j)) = fun k : Fin 256 => sc x0 x1 x2 x3 x4 x5 i h j k := by
    funext k
    have e : hR.lift (ix3 h i j) k = ix4 h i j (⟨k.val, k.isLt⟩ : Fin 256) := by funext a; apply Fin.ext; fin_cases a <;> rfl
    show val_main_v40 (F := Ideal) x0 x1 x2 x3 x4 x5 (hR.lift (ix3 h i j) k) = _
    rw [e, v40_at]
    rfl
  rw [hf]
  rfl

theorem v43_at (x0 : TX) (x1 x2 : TV) (x3 : TB) (x4 x5 : TW) (h : Fin 4) (i j : Fin 256) :
    val_main_v43 (F := Ideal) x0 x1 x2 x3 x4 x5 (ix3 h i j) = rowmax (sc x0 x1 x2 x3 x4 x5 i h j) := by
  rw [val_main_v43_apply, v41_at, val_main_v42_apply, val_main_cst_6_apply]
  show max cninf _ = _
  rw [cninf_eq_bot]
  exact max_eq_right bot_le

theorem v45_at (x0 : TX) (x1 x2 : TV) (x3 : TB) (x4 x5 : TW) (h : Fin 4) (i j k : Fin 256) :
    val_main_v45 (F := Ideal) x0 x1 x2 x3 x4 x5 (ix4 h i j k) = rowmax (sc x0 x1 x2 x3 x4 x5 i h j) := by
  rw [val_main_v45_apply, val_main_v44_apply]
  have e1 : idx_main_v45 (ix4 h i j k) = ix4 h i j (0 : Fin 1) := by funext a; apply Fin.ext; fin_cases a <;> rfl
  have e2 : idx_main_v44 (ix4 h i j (0 : Fin 1)) = ix3 h i j := by funext a; apply Fin.ext; fin_cases a <;> rfl
  rw [e1, e2, v43_at]

/-! ## The weights -/

theorem v47_at (x0 : TX) (x1 x2 : TV) (x3 : TB) (x4 x5 : TW) (h : Fin 4) (i j k : Fin 256) :
    val_main_v47 (F := Ideal) x0 x1 x2 x3 x4 x5 (ix4 h i j k) = pexp (sc x0 x1 x2 x3 x4 x5 i h j) k := by
  rw [val_main_v47_apply, val_main_v46_apply, v40_at, v45_at]
  unfold pexp
  rfl

theorem v48_at (x0 : TX) (x1 x2 : TV) (x3 : TB) (x4 x5 : TW) (h : Fin 4) (i j : Fin 256) :
    val_main_v48 (F := Ideal) x0 x1 x2 x3 x4 x5 (ix3 h i j) = psum (sc x0 x1 x2 x3 x4 x5 i h j) := by
  rw [val_main_v48_apply, val_main_cst_7_apply, Ideal.ofBits_def, Ideal.ofBits_zero_f32, zero_add]
  unfold psum
  refine Finset.sum_congr rfl fun k _ => ?_
  have e : idx_main_v48 (ix3 h i j) k = ix4 h i j k := by funext a; apply Fin.ext; fin_cases a <;> rfl
  rw [e, v47_at]

theorem v50_at (x0 : TX) (x1 x2 : TV) (x3 : TB) (x4 x5 : TW) (h : Fin 4) (i j k : Fin 256) :
    val_main_v50 (F := Ideal) x0 x1 x2 x3 x4 x5 (ix4 h i j k) = psum (sc x0 x1 x2 x3 x4 x5 i h j) := by
  rw [val_main_v50_apply, val_main_v49_apply]
  have e1 : idx_main_v50 (ix4 h i j k) = ix4 h i j (0 : Fin 1) := by funext a; apply Fin.ext; fin_cases a <;> rfl
  have e2 : idx_main_v49 (ix4 h i j (0 : Fin 1)) = ix3 h i j := by funext a; apply Fin.ext; fin_cases a <;> rfl
  rw [e1, e2, v48_at]

/-- The reference's weights at (h, i, j, k). -/
theorem v51_at (x0 : TX) (x1 x2 : TV) (x3 : TB) (x4 x5 : TW) (h : Fin 4) (i j k : Fin 256) :
    val_main_v51 (F := Ideal) x0 x1 x2 x3 x4 x5 (ix4 h i j k) = soft (sc x0 x1 x2 x3 x4 x5 i h j) k := by
  rw [val_main_v51_apply, v47_at, v50_at]
  unfold soft
  rfl

/-! ## The weighted average of the values -/

theorem v52_at (x0 : TX) (x1 x2 : TV) (x3 : TB) (x4 x5 : TW) (x6 : TW) (h : Fin 4) (i j : Fin 256) (d : Fin 32) :
    val_main_v52 (F := Ideal) x0 x1 x2 x3 x4 x5 x6 (ix4 h i j d)
      = ctxR (X4 x0 i) (bias x0 x1 x2 x3) (V1 x1) (V1 x2) (M2 x4) (M2 x5) (M2 x6) h j d := by
  rw [val_main_v52_apply]
  unfold ctxR
  refine Finset.sum_congr rfl fun k _ => ?_
  have el : lidx_main_v52 (ix4 h i j d) k = ix4 h i j k := by funext a; apply Fin.ext; fin_cases a <;> rfl
  have er : ridx_main_v52 (ix4 h i j d) k = ix4 h i k d := by funext a; apply Fin.ext; fin_cases a <;> rfl
  rw [el, er, v51_at, v34_at]

end Cert.ReferenceIdeal.RefValue

end
-- ==== Proof.RefValue.lean ====
/-
  The reference's gate, gated averages and output projection: the reference's result is the specification's.
-/
import proofs.«127889_j66589172957486_2_alg».proof.Proof.Gen.ReferenceIdeal.Read
import proofs.«127889_j66589172957486_2_alg».proof.Proof.TriAtt
import proofs.«127889_j66589172957486_2_alg».proof.Proof.RefSoft

noncomputable section

namespace Cert.ReferenceIdeal.RefValue

open Cert.ReferenceIdeal Cert.ReferenceIdeal.Gen Cert.ReferenceIdeal.Read Cert.TriAtt Idealize.ShloMosaic Idealize.ShloMosaic.ValueIdx

/-! ## The averages back as 128 channels -/

/-- Flattening (i, j, e) over [256, 256, 128] and reading it over [256, 256, 4, 32] gives (i, j, e / 32, e % 32). -/
theorem idx_merge (i j : Fin 256) (e : Fin 128) :
    idx_main_v54 (ix3 i j e)
      = ix4 i j (⟨e.val / 32, by have := e.isLt; omega⟩ : Fin 4) (⟨e.val % 32, Nat.mod_lt _ (by decide)⟩ : Fin 32) := by
  funext a; apply Fin.ext
  have := i.isLt; have := j.isLt; have := e.isLt
  match a with
  | ⟨0, _⟩ => show ((i.val * 256 + j.val) * 128 + e.val) / 32768 = i.val; omega
  | ⟨1, _⟩ => show ((i.val * 256 + j.val) * 128 + e.val) / 128 % 256 = j.val; omega
  | ⟨2, _⟩ => show ((i.val * 256 + j.val) * 128 + e.val) / 32 % 4 = e.val / 32; omega
  | ⟨3, _⟩ => show ((i.val * 256 + j.val) * 128 + e.val) % 32 = e.val % 32; omega

theorem v54_at (x0 : TX) (x1 x2 : TV) (x3 : TB) (x4 x5 x6 : TW) (i j : Fin 256) (e : Fin 128) :
    val_main_v54 (F := Ideal) x0 x1 x2 x3 x4 x5 x6 (ix3 i j e)
      = ctxR (X4 x0 i) (bias x0 x1 x2 x3) (V1 x1) (V1 x2) (M2 x4) (M2 x5) (M2 x6) ⟨e.val / 32, by have := e.isLt; omega⟩ j ⟨e.val % 32, Nat.mod_lt _ (by decide)⟩ := by
  rw [val_main_v54_apply, val_main_v53_apply, idx_merge]
  have e1 : idx_main_v53 (ix4 i j (⟨e.val / 32, by have := e.isLt; omega⟩ : Fin 4) (⟨e.val % 32, Nat.mod_lt _ (by decide)⟩ : Fin 32))
      = ix4 (⟨e.val / 32, by have := e.isLt; omega⟩ : Fin 4) i j (⟨e.val % 32, Nat.mod_lt _ (by decide)⟩ : Fin 32) := by funext a; apply Fin.ext; fin_cases a <;> rfl
  rw [e1, v52_at]

/-! ## The gate -/

/-- The word of the float one is the extended real one. -/
theorem one_word : Ideal.ofBits .f32 0x3F800000#32 = 1 := by
  simp [Ideal.ofBits, Ideal.ieee, -EReal.coe_mul]; norm_num

/-- The reference spells the logistic function out: one over one plus the exponential of the negated argument. -/
theorem v61_at (x0 : TX) (x1 x2 : TV) (x7 : TW) (i j : Fin 256) (e : Fin 128) :
    val_main_v61 (F := Ideal) x0 x1 x2 x7 (ix3 i j e) = gateR (X4 x0 i) (V1 x1) (V1 x2) (M2 x7) j e := by
  rw [val_main_v61_apply, val_main_v60_apply, val_main_cst_9_apply, val_main_v59_apply, val_main_v58_apply,
    val_main_cst_8_apply, val_main_v57_apply, val_main_v56_apply, v55_at]
  unfold gateR Ideal.logistic
  simp only [Ideal.hostDivf_def, Ideal.ofBits_def, Ideal.addf_def, Ideal.hostUnary_exp_def, Ideal.hostNegf_def,
    Ideal.negf_def, one_word]

/-! ## The gated averages and the output projection -/

theorem v62_at (x0 : TX) (x1 x2 : TV) (x3 : TB) (x4 x5 x6 : TW) (x7 : TW) (i j : Fin 256) (e : Fin 128) :
    val_main_v62 (F := Ideal) x0 x1 x2 x3 x4 x5 x6 x7 (ix3 i j e) = gatedR (X4 x0 i) (bias x0 x1 x2 x3) (V1 x1) (V1 x2) (M2 x4) (M2 x5) (M2 x6) (M2 x7) j e := by
  rw [val_main_v62_apply, v54_at, v61_at]
  unfold gatedR
  exact Ideal.mulf_def _ _

/-- The reference's result before the unit axis, at (i, j, c). -/
theorem v63_at (x0 : TX) (x1 x2 : TV) (x3 : TB) (x4 x5 x6 : TW) (x7 x8 : TW) (i j : Fin 256) (c : Fin 128) :
    val_main_v63 (F := Ideal) x0 x1 x2 x3 x4 x5 x6 x7 x8 (ix3 i j c)
      = out (X4 x0) (V1 x1) (V1 x2) (M4 x3) (M2 x4) (M2 x5) (M2 x6) (M2 x7) (M2 x8) i j c := by
  rw [val_main_v63_apply]
  unfold out outR
  refine Finset.sum_congr rfl fun e _ => ?_
  have el : lidx_main_v63 (ix3 i j c) e = ix3 i j e := by funext a; apply Fin.ext; fin_cases a <;> rfl
  have er : ridx_main_v63 (ix3 i j c) e = ix2 c e := by funext a; apply Fin.ext; fin_cases a <;> rfl
  rw [el, er, v62_at]
  rfl

/-! ## The whole result -/

/-- The reference computes the specification: its result array is `result` of its arguments. -/
theorem ref_eq (x0 : (⟨S1x256x256x128, .f32⟩ : BufTy).Contents (Elt Ideal)) (x1 x2 : (⟨S128, .f32⟩ : BufTy).Contents (Elt Ideal))
    (x3 : (⟨S4x128, .f32⟩ : BufTy).Contents (Elt Ideal)) (x4 x5 x6 x7 x8 : (⟨S128x128, .f32⟩ : BufTy).Contents (Elt Ideal)) :
    Cert.ReferenceIdeal.Read.val_main_v64 (F := Ideal) x0 x1 x2 x3 x4 x5 x6 x7 x8 = Cert.TriAtt.result x0 x1 x2 x3 x4 x5 x6 x7 x8 := by
  funext y
  rw [val_main_v64_apply]
  have e : idx_main_v64 y
      = ix3 (⟨(y 1).val, (y 1).isLt⟩ : Fin 256) (⟨(y 2).val, (y 2).isLt⟩ : Fin 256) (⟨(y 3).val, (y 3).isLt⟩ : Fin 128) := by funext a; apply Fin.ext; fin_cases a <;> rfl
  rw [e, v63_at]
  rfl

end Cert.ReferenceIdeal.RefValue

end
-- ==== Proof.lean ====
/-
  Triangle attention, a two-region kernel program against its array-language reference, equal over the extended reals.

  The kernel program first computes, block of 64 grid rows by block, the bias tri[h, j, k] (the normalised 128-channel
  row at grid position (j, k) against head h's weights), then, block of 16 grid rows by block, the attention itself:
  the rows are normalised again, and head after head the scores (query against key over the head's 32 channels, scaled,
  plus the bias) are turned into weights (subtract the row's maximum, exponentiate, divide by the sum), the weights
  average the values, the average is gated by a logistic and projected by the head's slice of the output weights, the
  four heads' shares being added onto a zero array; a last host operation puts a leading unit axis on the result.  The
  reference normalises once, projects all 128 channels at once, splits them into heads by a reshape and a transpose,
  and projects the merged gated averages by the whole output weight matrix.

  Both are the one function `Cert.TriAtt.result` of the argument arrays (Proof/TriAtt.lean): the kernel by reading each
  region's block at an index and covering the arrays by the blocks (Proof/Bias*.lean, Proof/Attn*.lean,
  Proof/KernelValue.lean over the run of Proof/KernelRun.lean), the reference by reading its operations one at a time
  (Proof/Ref*.lean).  The two arrangements differ only by the order of two factors in the bias and by a sum over 128
  channels taken head by head behind a leading zero: commutativity and associativity on the extended reals, so the
  precondition (finite inputs) is never opened.  The ideal pass rewrote nothing, so `preserves` is `True`.
-/
import proofs.«127889_j66589172957486_2_alg».proof.Defs
import proofs.«127889_j66589172957486_2_alg».proof.Proof.Gen.Kernel
import proofs.«127889_j66589172957486_2_alg».proof.Proof.Gen.Kernel.Skeleton
import proofs.«127889_j66589172957486_2_alg».proof.Proof.Gen.Kernel.Launch
import proofs.«127889_j66589172957486_2_alg».proof.Proof.Gen.Kernel.Points
import proofs.«127889_j66589172957486_2_alg».proof.Proof.Gen.Kernel.Frame
import proofs.«127889_j66589172957486_2_alg».proof.Proof.Gen.KernelIdeal
import proofs.«127889_j66589172957486_2_alg».proof.Proof.Gen.KernelIdeal.Skeleton
import proofs.«127889_j66589172957486_2_alg».proof.Proof.Gen.KernelIdeal.Launch
import proofs.«127889_j66589172957486_2_alg».proof.Proof.Gen.KernelIdeal.Points
import proofs.«127889_j66589172957486_2_alg».proof.Proof.Gen.KernelIdeal.Frame
import proofs.«127889_j66589172957486_2_alg».proof.Proof.Gen.ReferenceIdeal
import proofs.«127889_j66589172957486_2_alg».proof.Proof.Gen.ReferenceIdeal.Run
import proofs.«127889_j66589172957486_2_alg».proof.Proof.Gen.ReferenceIdeal.Read
import proofs.«127889_j66589172957486_2_alg».proof.Proof.Gen.Pre_finite_inputs
import proofs.«127889_j66589172957486_2_alg».proof.Proof.KernelValue
import proofs.«127889_j66589172957486_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the result array at the one function
    `Cert.TriAtt.result` of those arguments. -/
theorem algebraic : Cert.algebraic_KernelIdeal_ReferenceIdeal := by
  intro m ρ m' ρ' _ hagree
  refine ⟨fun c => Cert.TriAtt.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v64_eq, Cert.ReferenceIdeal.RefValue.ref_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
